-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S2x800000 : Shape := ⟨2, ![2, 800000]⟩
abbrev S2x400000 : Shape := ⟨2, ![2, 400000]⟩
abbrev S800000 : Shape := ⟨1, ![800000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_arg12 : FVec F S256x128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg12
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  main_v43

def fn_part1 {F : FTy → Type} [FloatOps F] (main_arg8 : FVec F S256x128 .f32) (main_arg9 : FVec F S128 .f32) (main_arg10 : FVec F S256x128 .f32) (main_arg11 : FVec F S128 .f32) (main_arg12 : FVec F S256x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg10
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg11 main_arg12 main_v33

def fn {F : FTy → Type} [FloatOps F] (main_arg0 : FVec F S100000x256 .f32) (main_arg1 : FVec F S50000x256 .f32) (main_arg2 : IVec S2x800000 32) (main_arg3 : IVec S2x400000 32) (main_arg4 : IVec S800000 32) (main_arg5 : IVec S800000 32) (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S256x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_v13 main_v16
-- ==== Kernel.lean ====
abbrev S100000x256 : Shape := ⟨2, ![100000, 256]⟩
abbrev S50000x256 : Shape := ⟨2, ![50000, 256]⟩
abbrev S2x800000 : Shape := ⟨2, ![2, 800000]⟩
abbrev S2x400000 : Shape := ⟨2, ![2, 400000]⟩
abbrev S800000 : Shape := ⟨1, ![800000]⟩
abbrev S256x128 : Shape := ⟨2, ![256, 128]⟩
abbrev S128 : Shape := ⟨1, ![128]⟩
abbrev S1x800000 : Shape := ⟨2, ![1, 800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S900000x128 : Shape := ⟨2, ![900000, 128]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S450000x1 : Shape := ⟨2, ![450000, 1]⟩
abbrev S50000x1 : Shape := ⟨2, ![50000, 1]⟩
abbrev S50000x128 : Shape := ⟨2, ![50000, 128]⟩
abbrev S450000x128 : Shape := ⟨2, ![450000, 128]⟩
abbrev S800000x1 : Shape := ⟨2, ![800000, 1]⟩
abbrev S800000x256 : Shape := ⟨2, ![800000, 256]⟩
abbrev S1x128 : Shape := ⟨2, ![1, 128]⟩

abbrev nBuf : Space → Nat
  | .hbm => 117
  | .vmem => 35
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S2x800000, .i32⟩
  | .hbm, ⟨3, _⟩ => ⟨S2x400000, .i32⟩
  | .hbm, ⟨4, _⟩ => ⟨S800000, .i32⟩
  | .hbm, ⟨5, _⟩ => ⟨S800000, .i32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S100000, .i32⟩
  | .hbm, ⟨18, _⟩ => ⟨S900000, .i32⟩
  | .hbm, ⟨19, _⟩ => ⟨S900000, .i32⟩
  | .hbm, ⟨20, _⟩ => ⟨S_, .f32⟩
  | .hbm, ⟨21, _⟩ => ⟨S900000, .f32⟩
  | .hbm, ⟨22, _⟩ => ⟨S_, .f32⟩
  | .hbm, ⟨23, _⟩ => ⟨S100000, .f32⟩
  | .hbm, ⟨24, _⟩ => ⟨S900000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000x128, .f32⟩
  | .hbm, ⟨45, _⟩ => ⟨S_, .f32⟩
  | .hbm, ⟨46, _⟩ => ⟨S100000x128, .f32⟩
  | .hbm, ⟨47, _⟩ => ⟨S900000x1, .i32⟩
  | .hbm, ⟨48, _⟩ => ⟨S100000x128, .f32⟩
  | .hbm, ⟨49, _⟩ => ⟨S1x400000, .i32⟩
  | .hbm, ⟨50, _⟩ => ⟨S400000, .i32⟩
  | .hbm, ⟨51, _⟩ => ⟨S1x400000, .i32⟩
  | .hbm, ⟨52, _⟩ => ⟨S400000, .i32⟩
  | .hbm, ⟨53, _⟩ => ⟨S50000, .i32⟩
  | .hbm, ⟨54, _⟩ => ⟨S450000, .i32⟩
  | .hbm, ⟨55, _⟩ => ⟨S450000, .i32⟩
  | .hbm, ⟨56, _⟩ => ⟨S_, .f32⟩
  | .hbm, ⟨57, _⟩ => ⟨S450000, .f32⟩
  | .hbm, ⟨58, _⟩ => ⟨S_, .f32⟩
  | .hbm, ⟨59, _⟩ => ⟨S50000, .f32⟩
  | .hbm, ⟨60, _⟩ => ⟨S450000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .i1⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S_, .i32⟩
  | .hbm, ⟨73, _⟩ => ⟨S450000, .i32⟩
  | .hbm, ⟨74, _⟩ => ⟨S450000, .i1⟩
  | .hbm, ⟨75, _⟩ => ⟨S_, .i32⟩
  | .hbm, ⟨76, _⟩ => ⟨S450000, .i32⟩
  | .hbm, ⟨77, _⟩ => ⟨S450000, .i32⟩
  | .hbm, ⟨78, _⟩ => ⟨S450000, .i32⟩
  | .hbm, ⟨79, _⟩ => ⟨S450000x1, .i32⟩
  | .hbm, ⟨80, _⟩ => ⟨S450000x128, .f32⟩
  | .hbm, ⟨81, _⟩ => ⟨S_, .f32⟩
  | .hbm, ⟨82, _⟩ => ⟨S50000x128, .f32⟩
  | .hbm, ⟨83, _⟩ => ⟨S450000x1, .i32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x256, .f32⟩
  | .hbm, ⟨94, _⟩ => ⟨S_, .f32⟩
  | .hbm, ⟨95, _⟩ => ⟨S100000x256, .f32⟩
  | .hbm, ⟨96, _⟩ => ⟨S800000x1, .i32⟩
  | .hbm, ⟨97, _⟩ => ⟨S100000x256, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S100000, .f32⟩
  | .hbm, ⟨102, _⟩ => ⟨S800000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x256, .f32⟩
  | .hbm, ⟨109, _⟩ => ⟨S100000x256, .f32⟩
  | .hbm, ⟨110, _⟩ => ⟨S100000x1, .f32⟩
  | .hbm, ⟨111, _⟩ => ⟨S1x128, .f32⟩
  | .hbm, ⟨112, _⟩ => ⟨S1x128, .f32⟩
  | .hbm, ⟨113, _⟩ => ⟨S100000x128, .f32⟩
  | .hbm, ⟨114, _⟩ => ⟨S50000x1, .f32⟩
  | .hbm, ⟨115, _⟩ => ⟨S1x128, .f32⟩
  | .hbm, ⟨116, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x256, .f32⟩
  | .local _ .vmem, ⟨8, _⟩ => ⟨S2000x256, .f32⟩
  | .local _ .vmem, ⟨9, _⟩ => ⟨S256x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S1x128, .f32⟩
  | .local _ .vmem, ⟨19, _⟩ => ⟨S2000x256, .f32⟩
  | .local _ .vmem, ⟨20, _⟩ => ⟨S2000x256, .f32⟩
  | .local _ .vmem, ⟨21, _⟩ => ⟨S256x128, .f32⟩
  | .local _ .vmem, ⟨22, _⟩ => ⟨S1x128, .f32⟩
  | .local _ .vmem, ⟨23, _⟩ => ⟨S2000x256, .f32⟩
  | .local _ .vmem, ⟨24, _⟩ => ⟨S2000x256, .f32⟩
  | .local _ .vmem, ⟨25, _⟩ => ⟨S256x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_12 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_17 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem8_0 : DmaSem sig := 26
abbrev cc2_sem8_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem3_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  shapeCasts_S50000_S50000x1 : S50000.ShapeCasts S50000x1
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x256_S2000x256 : S2000x256.ShapeCasts S2000x256
  scatter_S100000_S900000x1_S900000_n_0_0_1_wf : ScatterDims.WF S100000 S900000x1 S900000 [] [0] [0] 1
  dot_S2000x256_S256x128_S2000x128_1_0_0_1_n_n_wf : DotDims.WF S2000x256 S256x128 S2000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  scatter_S50000_S450000x1_S450000_n_0_0_1_wf : ScatterDims.WF S50000 S450000x1 S450000 [] [0] [0] 1
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S100000x256.size a
  hwx2_3 : ∀ i : grid2.Coords, EltTy.bits .f32 = 32 ∨ (Rect.block (s := S100000x256) S2000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .f32 = 32 ∨ (Rect.block (s := S100000x256) S2000x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg0) S2000x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v76) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v53) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S2x800000 : Shape := ⟨2, ![2, 800000]⟩
abbrev S2x400000 : Shape := ⟨2, ![2, 400000]⟩
abbrev S800000 : Shape := ⟨1, ![800000]⟩
abbrev S256x128 : Shape := ⟨2, ![256, 128]⟩
abbrev S128 : Shape := ⟨1, ![128]⟩
abbrev S1x800000 : Shape := ⟨2, ![1, 800000]⟩
abbrev S100000x128 : Shape := ⟨2, ![100000, 128]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S1x400000 : Shape := ⟨2, ![1, 400000]⟩
abbrev S400000 : Shape := ⟨1, ![400000]⟩
abbrev S50000x128 : Shape := ⟨2, ![50000, 128]⟩
abbrev S50000 : Shape := ⟨1, ![50000]⟩
abbrev S450000 : Shape := ⟨1, ![450000]⟩
abbrev S450000x1 : Shape := ⟨2, ![450000, 1]⟩
abbrev S450000x128 : Shape := ⟨2, ![450000, 128]⟩
abbrev S800000x1 : Shape := ⟨2, ![800000, 1]⟩
abbrev S800000x256 : Shape := ⟨2, ![800000, 256]⟩
abbrev S100000x1 : Shape := ⟨2, ![100000, 1]⟩

abbrev nBuf : Space → Nat
  | .hbm => 174
  | .vmem => 0
  | .smem => 0
  | _ => 0

abbrev hbmTy0_0 (i : Nat) : BufTy := match i % 128 with
  | 0 => ⟨S100000x256, .f32⟩
  | 1 => ⟨S50000x256, .f32⟩
  | 2 => ⟨S2x800000, .i32⟩
  | 3 => ⟨S2x400000, .i32⟩
  | 4 => ⟨S800000, .i32⟩
  | 5 => ⟨S800000, .i32⟩
  | 6 => ⟨S256x128, .f32⟩
  | 7 => ⟨S128, .f32⟩
  | 8 => ⟨S256x128, .f32⟩
  | 9 => ⟨S128, .f32⟩
  | 10 => ⟨S256x128, .f32⟩
  | 11 => ⟨S128, .f32⟩
  | 12 => ⟨S256x128, .f32⟩
  | 13 => ⟨S1x800000, .i32⟩
  | 14 => ⟨S800000, .i32⟩
  | 15 => ⟨S1x800000, .i32⟩
  | 16 => ⟨S800000, .i32⟩
  | 17 => ⟨S100000x128, .f32⟩
  | 18 => ⟨S100000, .i32⟩
  | 19 => ⟨S900000, .i32⟩
  | 20 => ⟨S900000, .i32⟩
  | 21 => ⟨S_, .f32⟩
  | 22 => ⟨S900000, .f32⟩
  | 23 => ⟨S_, .f32⟩
  | 24 => ⟨S100000, .f32⟩
  | 25 => ⟨S900000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S900000, .i32⟩
  | 37 => ⟨S900000, .i1⟩
  | 38 => ⟨S_, .i32⟩
  | 39 => ⟨S900000, .i32⟩
  | 40 => ⟨S900000, .i32⟩
  | 41 => ⟨S900000, .i32⟩
  | 42 => ⟨S900000x1, .i32⟩
  | 43 => ⟨S900000, .f32⟩
  | 44 => ⟨S_, .i32⟩
  | 45 => ⟨S900000, .i32⟩
  | 46 => ⟨S900000, .i1⟩
  | 47 => ⟨S_, .i32⟩
  | 48 => ⟨S900000, .i32⟩
  | 49 => ⟨S900000, .i32⟩
  | 50 => ⟨S900000, .i32⟩
  | 51 => ⟨S900000x1, .i32⟩
  | 52 => ⟨S900000, .f32⟩
  | 53 => ⟨S900000, .f32⟩
  | 54 => ⟨S_, .i32⟩
  | 55 => ⟨S900000, .i32⟩
  | 56 => ⟨S900000, .i1⟩
  | 57 => ⟨S_, .i32⟩
  | 58 => ⟨S900000, .i32⟩
  | 59 => ⟨S900000, .i32⟩
  | 60 => ⟨S900000, .i32⟩
  | 61 => ⟨S900000x1, .i32⟩
  | 62 => ⟨S900000x128, .f32⟩
  | 63 => ⟨S900000x1, .f32⟩
  | 64 => ⟨S900000x128, .f32⟩
  | 65 => ⟨S900000x128, .f32⟩
  | 66 => ⟨S_, .f32⟩
  | 67 => ⟨S100000x128, .f32⟩
  | 68 => ⟨S900000x1, .i32⟩
  | 69 => ⟨S100000x128, .f32⟩
  | 70 => ⟨S1x128, .f32⟩
  | 71 => ⟨S100000x128, .f32⟩
  | 72 => ⟨S100000x128, .f32⟩
  | 73 => ⟨S1x400000, .i32⟩
  | 74 => ⟨S400000, .i32⟩
  | 75 => ⟨S1x400000, .i32⟩
  | 76 => ⟨S400000, .i32⟩
  | 77 => ⟨S50000x128, .f32⟩
  | 78 => ⟨S50000, .i32⟩
  | 79 => ⟨S450000, .i32⟩
  | 80 => ⟨S450000, .i32⟩
  | 81 => ⟨S_, .f32⟩
  | 82 => ⟨S450000, .f32⟩
  | 83 => ⟨S_, .f32⟩
  | 84 => ⟨S50000, .f32⟩
  | 85 => ⟨S450000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S450000, .i32⟩
  | 97 => ⟨S450000, .i1⟩
  | 98 => ⟨S_, .i32⟩
  | 99 => ⟨S450000, .i32⟩
  | 100 => ⟨S450000, .i32⟩
  | 101 => ⟨S450000, .i32⟩
  | 102 => ⟨S450000x1, .i32⟩
  | 103 => ⟨S450000, .f32⟩
  | 104 => ⟨S_, .i32⟩
  | 105 => ⟨S450000, .i32⟩
  | 106 => ⟨S450000, .i1⟩
  | 107 => ⟨S_, .i32⟩
  | 108 => ⟨S450000, .i32⟩
  | 109 => ⟨S450000, .i32⟩
  | 110 => ⟨S450000, .i32⟩
  | 111 => ⟨S450000x1, .i32⟩
  | 112 => ⟨S450000, .f32⟩
  | 113 => ⟨S450000, .f32⟩
  | 114 => ⟨S_, .i32⟩
  | 115 => ⟨S450000, .i32⟩
  | 116 => ⟨S450000, .i1⟩
  | 117 => ⟨S_, .i32⟩
  | 118 => ⟨S450000, .i32⟩
  | 119 => ⟨S450000, .i32⟩
  | 120 => ⟨S450000, .i32⟩
  | 121 => ⟨S450000x1, .i32⟩
  | 122 => ⟨S450000x128, .f32⟩
  | 123 => ⟨S450000x1, .f32⟩
  | 124 => ⟨S450000x128, .f32⟩
  | 125 => ⟨S450000x128, .f32⟩
  | 126 => ⟨S_, .f32⟩
  | 127 => ⟨S50000x128, .f32⟩
  | _ => ⟨S100000x256, .f32⟩

abbrev hbmTy0_1 (i : Nat) : BufTy := match i % 128 with
  | 0 => ⟨S450000x1, .i32⟩
  | 1 => ⟨S50000x128, .f32⟩
  | 2 => ⟨S1x128, .f32⟩
  | 3 => ⟨S50000x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x256, .f32⟩
  | 14 => ⟨S_, .f32⟩
  | 15 => ⟨S100000x256, .f32⟩
  | 16 => ⟨S800000x1, .i32⟩
  | 17 => ⟨S100000x256, .f32⟩
  | 18 => ⟨S_, .f32⟩
  | 19 => ⟨S800000, .f32⟩
  | 20 => ⟨S_, .f32⟩
  | 21 => ⟨S100000, .f32⟩
  | 22 => ⟨S800000x1, .i32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x256, .f32⟩
  | 29 => ⟨S100000x256, .f32⟩
  | 30 => ⟨S100000x128, .f32⟩
  | 31 => ⟨S1x128, .f32⟩
  | 32 => ⟨S100000x128, .f32⟩
  | 33 => ⟨S100000x128, .f32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S50000x128, .f32⟩
  | 45 => ⟨S50000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_17 : Ref sig .tc := ⟨.hbm, 114, rfl⟩
abbrev main_v78 : Ref sig .tc := ⟨.hbm, 115, rfl⟩
abbrev main_v79 : Ref sig .tc := ⟨.hbm, 116, rfl⟩
abbrev main_c_18 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_19 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_20 : Ref sig .tc := ⟨.hbm, 133, rfl⟩
abbrev main_v94 : Ref sig .tc := ⟨.hbm, 134, rfl⟩
abbrev main_v95 : Ref sig .tc := ⟨.hbm, 135, rfl⟩
abbrev main_c_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_23 : Ref sig .tc := ⟨.hbm, 146, rfl⟩
abbrev main_v104 : Ref sig .tc := ⟨.hbm, 147, rfl⟩
abbrev main_cst_24 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_25 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_26 : Ref sig .tc := ⟨.hbm, 165, rfl⟩
abbrev main_v120 : Ref sig .tc := ⟨.hbm, 166, rfl⟩
abbrev main_v121 : Ref sig .tc := ⟨.hbm, 167, rfl⟩
abbrev main_call2_cst : Ref sig .tc := ⟨.hbm, 168, rfl⟩
abbrev main_call2_v0 : Ref sig .tc := ⟨.hbm, 169, rfl⟩
abbrev main_v122 : Ref sig .tc := ⟨.hbm, 170, rfl⟩
abbrev main_call3_cst : Ref sig .tc := ⟨.hbm, 171, rfl⟩
abbrev main_call3_v0 : Ref sig .tc := ⟨.hbm, 172, rfl⟩
abbrev main_v123 : Ref sig .tc := ⟨.hbm, 173, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  dot_S100000x256_S256x128_S100000x128_1_0_0_1_n_n_wf : DotDims.WF S100000x256 S256x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S50000x256_S256x128_S50000x128_1_0_0_1_n_n_wf : DotDims.WF S50000x256 S256x128 S50000x128 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.Spec.lean ====
/-
  What each of the four tiled kernels leaves in its output array, as one function of whole arrays, entry by entry.

  * `projScaled x w d`: entry (p, q) is the row-by-column product  Σ_k x(p,k)·w(k,q)  scaled by the row's
    weight d(p,0) — a dense projection whose row p is multiplied by the source-side normalisation of node p.
  * `combineArt seg d b mean wl bl x wr`: entry (p, q) is
        max( ((seg(p,q)·d(p,0) + b(0,q)) + ((Σ_k mean(p,k)·wl(k,q) + bl(0,q)) + Σ_k x(p,k)·wr(k,q))) · ½ , 0 ),
    the destination-side normalisation of an aggregated row plus its bias, averaged with a neighbour-mean branch
    (a dense map of the mean plus a bias, plus a dense map of the node's own features), then clipped at zero.
  * `combineSoft seg d b`: entry (p, q) is  max( seg(p,q)·d(p,0) + b(0,q), 0 ).

  Everything is on the extended reals; ½ and 0 are kept as the binary words the programs print.
-/
import Idealize.ShloMosaic.PureOps.Ideal.Laws
import Idealize.ShloMosaic.Lib.ValueIdx

noncomputable section

namespace Hetero

open Idealize.ShloMosaic Idealize.ShloMosaic.ValueIdx

/-- The [a, b] array whose entry (p, q) is `f p q`. -/
def of2 {α : Type} {a b : ℕ} (f : Fin a → Fin b → α) : (⟨2, ![a, b]⟩ : Shape).Idx → α :=
  fun i => f ⟨(i 0).val, idx2_lt0 i⟩ ⟨(i 1).val, idx2_lt1 i⟩

theorem of2_apply {α : Type} {a b : ℕ} (f : Fin a → Fin b → α) (p : Fin a) (q : Fin b) :
    of2 f (ix2 p q) = f p q := rfl

/-- Row `e` of a column of start indices, read signed and clamped into `[0, N - 1]`: the row a gather along axis 0 reads. -/
def clampRow {E : ℕ} (N : ℕ) (hN : 0 < N) (idx : IVec ⟨2, ![E, 1]⟩ 32) (e : Fin E) : Fin N :=
  ⟨min (idx (ix2 e (0 : Fin 1))).toInt.toNat (N - 1), by omega⟩

/-- The word of one half. -/
abbrev half : Ideal .f32 := Ideal.ofBits .f32 0x3F000000#32
/-- The word of zero. -/
abbrev zero32 : Ideal .f32 := Ideal.ofBits .f32 0x00000000#32

/-- A dense projection with each row scaled by that row's weight. -/
def projScaled {n : ℕ} (x : FVec Ideal ⟨2, ![n, 256]⟩ .f32) (w : FVec Ideal ⟨2, ![256, 128]⟩ .f32)
    (d : FVec Ideal ⟨2, ![n, 1]⟩ .f32) : FVec Ideal ⟨2, ![n, 128]⟩ .f32 :=
  of2 fun p q => (∑ k : Fin 256, x (ix2 p k) * w (ix2 k q)) * d (ix2 p (0 : Fin 1))

theorem projScaled_apply {n : ℕ} (x : FVec Ideal ⟨2, ![n, 256]⟩ .f32) (w : FVec Ideal ⟨2, ![256, 128]⟩ .f32)
    (d : FVec Ideal ⟨2, ![n, 1]⟩ .f32) (p : Fin n) (q : Fin 128) :
    projScaled x w d (ix2 p q) = (∑ k : Fin 256, x (ix2 p k) * w (ix2 k q)) * d (ix2 p (0 : Fin 1)) := rfl

/-- The averaged, clipped combination of the normalised aggregate and the neighbour-mean branch. -/
def combineArt {n : ℕ} (seg : FVec Ideal ⟨2, ![n, 128]⟩ .f32) (d : FVec Ideal ⟨2, ![n, 1]⟩ .f32)
    (b : FVec Ideal ⟨2, ![1, 128]⟩ .f32) (mean : FVec Ideal ⟨2, ![n, 256]⟩ .f32)
    (wl : FVec Ideal ⟨2, ![256, 128]⟩ .f32) (bl : FVec Ideal ⟨2, ![1, 128]⟩ .f32)
    (x : FVec Ideal ⟨2, ![n, 256]⟩ .f32) (wr : FVec Ideal ⟨2, ![256, 128]⟩ .f32) : FVec Ideal ⟨2, ![n, 128]⟩ .f32 :=
  of2 fun p q =>
    max (((seg (ix2 p q) * d (ix2 p (0 : Fin 1)) + b (ix2 (0 : Fin 1) q))
        + (((∑ k : Fin 256, mean (ix2 p k) * wl (ix2 k q)) + bl (ix2 (0 : Fin 1) q))
            + ∑ k : Fin 256, x (ix2 p k) * wr (ix2 k q))) * half) zero32

theorem combineArt_apply {n : ℕ} (seg : FVec Ideal ⟨2, ![n, 128]⟩ .f32) (d : FVec Ideal ⟨2, ![n, 1]⟩ .f32)
    (b : FVec Ideal ⟨2, ![1, 128]⟩ .f32) (mean : FVec Ideal ⟨2, ![n, 256]⟩ .f32)
    (wl : FVec Ideal ⟨2, ![256, 128]⟩ .f32) (bl : FVec Ideal ⟨2, ![1, 128]⟩ .f32)
    (x : FVec Ideal ⟨2, ![n, 256]⟩ .f32) (wr : FVec Ideal ⟨2, ![256, 128]⟩ .f32) (p : Fin n) (q : Fin 128) :
    combineArt seg d b mean wl bl x wr (ix2 p q)
      = max (((seg (ix2 p q) * d (ix2 p (0 : Fin 1)) + b (ix2 (0 : Fin 1) q))
        + (((∑ k : Fin 256, mean (ix2 p k) * wl (ix2 k q)) + bl (ix2 (0 : Fin 1) q))
            + ∑ k : Fin 256, x (ix2 p k) * wr (ix2 k q))) * half) zero32 := rfl

/-- The clipped, normalised aggregate plus bias. -/
def combineSoft {n : ℕ} (seg : FVec Ideal ⟨2, ![n, 128]⟩ .f32) (d : FVec Ideal ⟨2, ![n, 1]⟩ .f32)
    (b : FVec Ideal ⟨2, ![1, 128]⟩ .f32) : FVec Ideal ⟨2, ![n, 128]⟩ .f32 :=
  of2 fun p q => max (seg (ix2 p q) * d (ix2 p (0 : Fin 1)) + b (ix2 (0 : Fin 1) q)) zero32

theorem combineSoft_apply {n : ℕ} (seg : FVec Ideal ⟨2, ![n, 128]⟩ .f32) (d : FVec Ideal ⟨2, ![n, 1]⟩ .f32)
    (b : FVec Ideal ⟨2, ![1, 128]⟩ .f32) (p : Fin n) (q : Fin 128) :
    combineSoft seg d b (ix2 p q) = max (seg (ix2 p q) * d (ix2 p (0 : Fin 1)) + b (ix2 (0 : Fin 1) q)) zero32 := rfl

end Hetero

end
-- ==== Proof.KTerms.lean ====
/-
  The two results of the tiled program, written as functions of the argument arrays.

  Both programs share their structural host chains (the index columns, the degree count, its inverse square root,
  the neighbour mean); those are named by the stages of the reference's operation-by-operation reading
  (`val_main_vN`). What the tiled program does differently is collected here:
    * `segA` / `segS`: the raw segment sum — a scatter-add, by destination, of the gathered rows of the
      SOURCE-scaled projection  (x · W)[r, :] · dinv[r];
    * `artK` / `softK`: the combine regions' results over them (the destination-side scale, the bias, the
      neighbour-mean branch, the average and the clip).
-/
import proofs.«119477_j88364657147989_2_alg».proof.Proof.RefRead
import proofs.«119477_j88364657147989_2_alg».proof.Proof.Spec

noncomputable section

namespace Hetero

open Idealize.ShloMosaic Idealize.ShloMosaic.ValueIdx

/-- A length-n vector as the column [n, 1]. -/
def colOf {n : ℕ} (v : FVec Ideal ⟨1, ![n]⟩ .f32) : FVec Ideal ⟨2, ![n, 1]⟩ .f32 := of2 fun p _ => v (ix1 p)
theorem colOf_apply {n : ℕ} (v : FVec Ideal ⟨1, ![n]⟩ .f32) (p : Fin n) (u : Fin 1) : colOf v (ix2 p u) = v (ix1 p) := rfl

/-- A length-n vector as the row [1, n]. -/
def rowOf {n : ℕ} (v : FVec Ideal ⟨1, ![n]⟩ .f32) : FVec Ideal ⟨2, ![1, n]⟩ .f32 := of2 fun _ q => v (ix1 q)
theorem rowOf_apply {n : ℕ} (v : FVec Ideal ⟨1, ![n]⟩ .f32) (u : Fin 1) (q : Fin n) : rowOf v (ix2 u q) = v (ix1 q) := rfl

end Hetero

namespace Cert.ReferenceIdeal.RefValue

open Cert.ReferenceIdeal Cert.ReferenceIdeal.ReadP Idealize.ShloMosaic Idealize.ShloMosaic.ValueIdx

/-- Articles: the scatter-add, by destination, of the gathered rows of the source-scaled projection. -/
def segA (x0 : (⟨S100000x256, .f32⟩ : BufTy).Contents (Elt Ideal)) (x2 : (⟨S2x800000, .i32⟩ : BufTy).Contents (Elt Ideal)) (x6 : (⟨S256x128, .f32⟩ : BufTy).Contents (Elt Ideal)) :
    FVec Ideal ⟨2, ![100000, 128]⟩ .f32 :=
  Host.scatterAdd (F := Ideal) scatter_S100000x128_S900000x1_S900000x128_1_0_0_1 (val_main_v41 (F := Ideal)) (val_main_v42 (F := Ideal) x2)
    (Host.gather gather_S100000x128_S900000x1_S900000x128_1_0_n_n_0_1_1128
      (Hetero.projScaled x0 x6 (Hetero.colOf (val_main_v15 (F := Ideal) x2))) (val_main_v36 (F := Ideal) x2))

/-- Software: the same over its own graph. -/
def segS (x1 : (⟨S50000x256, .f32⟩ : BufTy).Contents (Elt Ideal)) (x3 : (⟨S2x400000, .i32⟩ : BufTy).Contents (Elt Ideal)) (x8 : (⟨S256x128, .f32⟩ : BufTy).Contents (Elt Ideal)) :
    FVec Ideal ⟨2, ![50000, 128]⟩ .f32 :=
  Host.scatterAdd (F := Ideal) scatter_S50000x128_S450000x1_S450000x128_1_0_0_1 (val_main_v88 (F := Ideal)) (val_main_v89 (F := Ideal) x3)
    (Host.gather gather_S50000x128_S450000x1_S450000x128_1_0_n_n_0_1_1128
      (Hetero.projScaled x1 x8 (Hetero.colOf (val_main_v62 (F := Ideal) x3))) (val_main_v83 (F := Ideal) x3))

/-- The article result of the tiled program. -/
def artK (x0 : (⟨S100000x256, .f32⟩ : BufTy).Contents (Elt Ideal)) (x1 : (⟨S50000x256, .f32⟩ : BufTy).Contents (Elt Ideal)) (x2 : (⟨S2x800000, .i32⟩ : BufTy).Contents (Elt Ideal))
    (x4 x5 : (⟨S800000, .i32⟩ : BufTy).Contents (Elt Ideal)) (x6 : (⟨S256x128, .f32⟩ : BufTy).Contents (Elt Ideal)) (x7 : (⟨S128, .f32⟩ : BufTy).Contents (Elt Ideal))
    (x10 : (⟨S256x128, .f32⟩ : BufTy).Contents (Elt Ideal)) (x11 : (⟨S128, .f32⟩ : BufTy).Contents (Elt Ideal)) (x12 : (⟨S256x128, .f32⟩ : BufTy).Contents (Elt Ideal)) :
    FVec Ideal ⟨2, ![100000, 128]⟩ .f32 :=
  Hetero.combineArt (segA x0 x2 x6) (Hetero.colOf (val_main_v15 (F := Ideal) x2)) (Hetero.rowOf x7)
    (val_main_v112 (F := Ideal) x1 x4 x5) x10 (Hetero.rowOf x11) x0 x12

/-- The software result of the tiled program. -/
def softK (x1 : (⟨S50000x256, .f32⟩ : BufTy).Contents (Elt Ideal)) (x3 : (⟨S2x400000, .i32⟩ : BufTy).Contents (Elt Ideal)) (x8 : (⟨S256x128, .f32⟩ : BufTy).Contents (Elt Ideal))
    (x9 : (⟨S128, .f32⟩ : BufTy).Contents (Elt Ideal)) : FVec Ideal ⟨2, ![50000, 128]⟩ .f32 :=
  Hetero.combineSoft (segS x1 x3 x8) (Hetero.colOf (val_main_v62 (F := Ideal) x3)) (Hetero.rowOf x9)

end Cert.ReferenceIdeal.RefValue

end
-- ==== Proof.RefResults.lean ====
/-
  The reference program's two results, entry by entry.

  Article nodes: entry (p, q) of the first result is
      max( ((A(p,q) + b_aa(q)) + ((Σ_k M(p,k)·W_l(k,q) + b_l(q)) + Σ_k x(p,k)·W_r(k,q))) · ½ , 0 ),
  where A and M are arrays the program computes earlier (A by a scatter-addition of rows at the rows an edge
  list names, M as one such result divided, row by row, by another that is first bounded below by a constant); both are carried as whole arrays and never opened here.
  Software nodes: entry (p, q) of the second result is  max( S(p,q) + b_ss(q), 0 )  with S another such
  scatter-addition, carried whole in the same way.

  Each bias is a vector of 128 entries spread first over a single row and then over every row, so at (p, q) it reads
  the vector at q; ½ and 0 are scalars spread over the whole array and stay the binary words the program prints.
  A dense product reads row p of its left factor against column q of its right factor.
-/
import proofs.«119477_j88364657147989_2_alg».proof.Proof.RefRead
import proofs.«119477_j88364657147989_2_alg».proof.Proof.Spec

noncomputable section

namespace Cert.ReferenceIdeal.RefValue

open Cert.ReferenceIdeal Cert.ReferenceIdeal.ReadP Idealize.ShloMosaic Idealize.ShloMosaic.ValueIdx

/-! ### Where each spread-out vector and each dense product reads its operands -/

/-- The article bias at (p, q) is read at q. -/
theorem bias_aa_idx (p : Fin 100000) (q : Fin 128) : idx_main_v44 (idx_main_v45 (ix2 p q)) = ix1 q :=
  funext fun a => Fin.ext (by match a with | ⟨0, _⟩ => rfl)

/-- The neighbour-mean branch's bias at (p, q) is read at q. -/
theorem bias_sa_idx (p : Fin 100000) (q : Fin 128) : idx_main_v114 (idx_main_v115 (ix2 p q)) = ix1 q :=
  funext fun a => Fin.ext (by match a with | ⟨0, _⟩ => rfl)

/-- The software bias at (p, q) is read at q. -/
theorem bias_ss_idx (p : Fin 50000) (q : Fin 128) : idx_main_v91 (idx_main_v92 (ix2 p q)) = ix1 q :=
  funext fun a => Fin.ext (by match a with | ⟨0, _⟩ => rfl)

/-- The product of the neighbour mean with its weights reads row p of the mean ... -/
theorem mean_lidx (p : Fin 100000) (q : Fin 128) (k : Fin 256) : lidx_main_v113 (ix2 p q) k = ix2 p k :=
  funext fun a => Fin.ext (by match a with | ⟨0, _⟩ => rfl | ⟨1, _⟩ => rfl)

/-- ... against column q of the weights. -/
theorem mean_ridx (p : Fin 100000) (q : Fin 128) (k : Fin 256) : ridx_main_v113 (ix2 p q) k = ix2 k q :=
  funext fun a => Fin.ext (by match a with | ⟨0, _⟩ => rfl | ⟨1, _⟩ => rfl)

/-- The product of a node's own features with the root weights reads row p of the features ... -/
theorem root_lidx (p : Fin 100000) (q : Fin 128) (k : Fin 256) : lidx_main_v117 (ix2 p q) k = ix2 p k :=
  funext fun a => Fin.ext (by match a with | ⟨0, _⟩ => rfl | ⟨1, _⟩ => rfl)

/-- ... against column q of the weights. -/
theorem root_ridx (p : Fin 100000) (q : Fin 128) (k : Fin 256) : ridx_main_v117 (ix2 p q) k = ix2 k q :=
  funext fun a => Fin.ext (by match a with | ⟨0, _⟩ => rfl | ⟨1, _⟩ => rfl)

/-! ### The two results -/

/-- The article result at (p, q): the aggregated row plus its bias, added to the neighbour-mean branch (a dense map of
the mean plus a bias, plus a dense map of the node's own features), halved, and clipped at zero. -/
theorem art_apply (x0 : (⟨S100000x256, .f32⟩ : BufTy).Contents (Elt Ideal)) (x1 : (⟨S50000x256, .f32⟩ : BufTy).Contents (Elt Ideal)) (x2 : (⟨S2x800000, .i32⟩ : BufTy).Contents (Elt Ideal)) (x4 x5 : (⟨S800000, .i32⟩ : BufTy).Contents (Elt Ideal)) (x6 : (⟨S256x128, .f32⟩ : BufTy).Contents (Elt Ideal)) (x7 : (⟨S128, .f32⟩ : BufTy).Contents (Elt Ideal)) (x10 : (⟨S256x128, .f32⟩ : BufTy).Contents (Elt Ideal)) (x11 : (⟨S128, .f32⟩ : BufTy).Contents (Elt Ideal)) (x12 : (⟨S256x128, .f32⟩ : BufTy).Contents (Elt Ideal))
    (p : Fin 100000) (q : Fin 128) :
    val_main_v122 (F := Ideal) x0 x1 x2 x4 x5 x6 x7 x10 x11 x12 (ix2 p q)
      = max (((val_main_v43 (F := Ideal) x0 x2 x6 (ix2 p q) + x7 (ix1 q))
          + (((∑ k : Fin 256, val_main_v112 (F := Ideal) x1 x4 x5 (ix2 p k) * x10 (ix2 k q)) + x11 (ix1 q))
              + ∑ k : Fin 256, x0 (ix2 p k) * x12 (ix2 k q))) * Hetero.half) Hetero.zero32 := by
  rw [val_main_v122_apply, val_main_v121_apply, val_main_v119_apply, val_main_v46_apply, val_main_v45_apply,
    val_main_v44_apply, val_main_v118_apply, val_main_v116_apply, val_main_v113_apply, val_main_v115_apply,
    val_main_v114_apply, val_main_v117_apply, val_main_v120_apply, val_main_cst_26_apply, val_main_call2_v0_apply,
    val_main_call2_cst_apply]
  simp only [bias_aa_idx, bias_sa_idx, mean_lidx, mean_ridx, root_lidx, root_ridx, Ideal.addf_def, Ideal.mulf_def,
    Ideal.maximumf_def, Ideal.ofBits_def]

/-- The software result at (p, q): the aggregated row plus its bias, clipped at zero. -/
theorem soft_apply (x1 : (⟨S50000x256, .f32⟩ : BufTy).Contents (Elt Ideal)) (x3 : (⟨S2x400000, .i32⟩ : BufTy).Contents (Elt Ideal)) (x8 : (⟨S256x128, .f32⟩ : BufTy).Contents (Elt Ideal)) (x9 : (⟨S128, .f32⟩ : BufTy).Contents (Elt Ideal)) (p : Fin 50000) (q : Fin 128) :
    val_main_v123 (F := Ideal) x1 x3 x8 x9 (ix2 p q)
      = max (val_main_v90 (F := Ideal) x1 x3 x8 (ix2 p q) + x9 (ix1 q)) Hetero.zero32 := by
  rw [val_main_v123_apply, val_main_v93_apply, val_main_v92_apply, val_main_v91_apply, val_main_call3_v0_apply,
    val_main_call3_cst_apply]
  simp only [bias_ss_idx, Ideal.addf_def, Ideal.maximumf_def, Ideal.ofBits_def]

end Cert.ReferenceIdeal.RefValue

end
-- ==== Proof.LibRowGather.lean ====
/-
  The row gather of a rank-2 table, read at an entry.

  Let `x` be a table of `N` rows of `C` entries and `idx` a column of `R` start indices. The gather that takes whole
  rows (slices of sizes `[1, C]`, the row axis collapsed, the column axis the one offset axis, the start index naming
  the row axis, the start indices' second axis the index vector's) has `R` rows of `C` entries; its entry `(n, e)` is
  the table's entry `(r, e)`, where `r` is the `n`-th start index read as a signed integer and clamped into
  `[0, N - 1]`: a negative index reads row `0`, an index from `N` on reads the last row.
  The operand index of entry `(n, e)` is, axis by axis, a clamped start plus a batching coordinate plus an offset
  coordinate. On the row axis the start is the clamped index (the slice there has size `1`, so the bound is
  `N - 1`), there is no batching axis, and the axis is collapsed, so its offset is `0`. On the column axis the start
  index names nothing, so the start is `0`, and the offset is the result's column `e`. Every extent is generic.
-/
import Idealize.ShloMosaic.Lib.ValueIdx

namespace RowGather

open Idealize.ShloMosaic Idealize.ShloMosaic.ValueIdx

variable {α : Type}

/-- The dimension numbers of the row gather, for a table `[N, C]`, start indices `[R, 1]` and a result `[R, C]`:
    offset axes `[1]`, collapsed axes `[0]`, no batching axes, start index map `[0]`, the index vector on axis `1`,
    slices of sizes `[1, C]`. Their side conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather under the literal record, at entry `(n, e)`: the table at row "start index `n`, read signed and
    clamped into `[0, N - 1]`" and column `e`. -/
theorem rowDims_gather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (n : Fin R) (e : Fin C) :
    Host.gather (rowDims N R C wf) x idx (ix2 n e)
      = x (ix2 (⟨min (idx (ix2 n (0 : Fin 1))).toInt.toNat (N - 1), by omega⟩ : Fin N) e) := by
  unfold Host.gather
  congr 1
  funext a
  refine Fin.ext ?_
  match a with
  | ⟨0, _⟩ =>
    show (rowDims N R C wf).start (ix2 n e) idx 0 + (rowDims N R C wf).batchCoord (ix2 n e) 0
        + (rowDims N R C wf).offCoord (ix2 n e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 n e) ⟨List.idxOf (0 : Fin 2) (rowDims N R C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowDims N R C wf).start (ix2 n e) idx 1 + (rowDims N R C wf).batchCoord (ix2 n e) 1
        + (rowDims N R C wf).offCoord (ix2 n e) 1 = e.val
    have h10 : (1 : Fin 2) ∉ [(0 : Fin 2)] := by decide
    have h1 : (1 : Fin 2) ∉ (rowDims N R C wf).startIndexMap := h10
    have hk : (1 : Fin 2) ∈ (rowDims N R C wf).sKept :=
      (GatherDims.mem_sKept _ _).mpr ⟨h10, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- A record with the row gather's seven fields is the literal record. -/
theorem eq_rowDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) :
    ∃ wf, d = rowDims N R C wf := by
  obtain ⟨od, cd, ob, sb, sm, iv, ss, wf⟩ := d
  simp only at h1 h2 h3 h4 h5 h6 h7
  subst h1 h2 h3 h4 h5 h6 h7
  exact ⟨wf, rfl⟩

/-- THE ROW GATHER READ AT `(n, e)`: under any record whose lists are the row gather's, entry `(n, e)` of the result
    is the table at row "start index `n`, read signed and clamped into `[0, N - 1]`" and column `e`. -/
theorem gather_apply {N R C w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (n : Fin R) (e : Fin C) :
    Host.gather d x idx (ix2 n e)
      = x (ix2 (⟨min (idx (ix2 n (0 : Fin 1))).toInt.toNat (N - 1), by omega⟩ : Fin N) e) := by
  obtain ⟨wf, rfl⟩ := eq_rowDims d h1 h2 h3 h4 h5 h6 h7
  exact rowDims_gather_apply hN wf x idx n e

end RowGather
-- ==== Proof.RefUpdates.lean ====
/-
  The per-edge update that the reference scatters in each of its two normalised segment sums, read entry by entry,
  with the facts about its index columns and its normalisation factor.

  For one convolution over N nodes and E edges (the given edges followed by one self loop per node), with source
  column s and destination column d (both of E words), the reference forms
    * h = x · W, the dense projection of the node features;
    * deg = the number of edges arriving at each node, and dinv = 1/√deg where deg > 0, else 0;
    * for edge e the factor norm(e) = dinv(s'(e)) · dinv(d'(e)), where s' and d' are the columns with a negative
      word shifted up by N (the wrap-around of a negative position), read signed and clamped into [0, N − 1] by the
      gathers;
    * the update row upd(e, ·) = h(s'(e), ·) · norm(e), which a segment sum then adds into row d(e).
  This module proves
    * the update at (e, q) is (Σ_k x(s'(e), k) · W(k, q)) · (dinv(s'(e)) · dinv(d'(e)));
    * the two source columns that the program builds (one for the factor, one for the rows of h) are the same column;
    * when the raw destination word of edge e, read signed, is a node p, the clamped wrapped destination d'(e) is p;
    * dinv is nonnegative and never +∞;
  once for the article convolution (N = 100000, E = 900000) and once for the software one (N = 50000, E = 450000).

  First the gather of single entries of a rank-1 table is read at an index, for any extents; then the two facts
  about words and about the reciprocal square root that the statements above rest on.
-/
import proofs.«119477_j88364657147989_2_alg».proof.Proof.RefRead
import proofs.«119477_j88364657147989_2_alg».proof.Proof.Spec
import proofs.«119477_j88364657147989_2_alg».proof.Proof.LibRowGather
import Idealize.ShloMosaic.Lib.ValueIdx
import Idealize.ShloMosaic.PureOps.Ideal.Laws

noncomputable section

/-! ## The gather of single entries of a rank-1 table, read at an index

Let `x` be a table of `N` entries and `idx` a column of `R` start indices. The gather that takes one entry per start
index (slices of size `[1]`, the one axis collapsed, no offset axis, the start index naming that axis, the start
indices' second axis the index vector's) has `R` entries; entry `n` is the table's entry `r`, where `r` is the
`n`-th start index read as a signed integer and clamped into `[0, N - 1]`. On the table's one axis the start is the
clamped index (the slice there has size `1`, so the bound is `N - 1`), there is no batching axis, and the axis is
collapsed, so its offset is `0`. Every extent is generic. -/

namespace VecGather

open Idealize.ShloMosaic Idealize.ShloMosaic.ValueIdx

variable {α : Type}

/-- The dimension numbers of the entry gather, for a table `[N]`, start indices `[R, 1]` and a result `[R]`:
    no offset axes, collapsed axes `[0]`, no batching axes, start index map `[0]`, the index vector on axis `1`,
    slices of size `[1]`. Their side conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry gather under the literal record, at entry `n`: the table at "start index `n`, read signed and clamped
    into `[0, N - 1]`". -/
theorem vecDims_gather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (n : Fin R) :
    Host.gather (vecDims N R wf) x idx (ix1 n)
      = x (ix1 (⟨min (idx (ix2 n (0 : Fin 1))).toInt.toNat (N - 1), by omega⟩ : Fin N)) := by
  unfold Host.gather
  congr 1
  funext a
  obtain rfl : a = 0 := Subsingleton.elim _ _
  refine Fin.ext ?_
  show (vecDims N R wf).start (ix1 n) idx 0 + (vecDims N R wf).batchCoord (ix1 n) 0
      + (vecDims N R wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 n) ⟨List.idxOf (0 : Fin 1) (vecDims N R wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- A record with the entry gather's seven fields is the literal record. -/
theorem eq_vecDims {N R : Nat} (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) :
    ∃ wf, d = vecDims N R wf := by
  obtain ⟨od, cd, ob, sb, sm, iv, ss, wf⟩ := d
  simp only at h1 h2 h3 h4 h5 h6 h7
  subst h1 h2 h3 h4 h5 h6 h7
  exact ⟨wf, rfl⟩

/-- THE ENTRY GATHER READ AT `n`: under any record whose lists are the entry gather's, entry `n` of the result is the
    table at "start index `n`, read signed and clamped into `[0, N - 1]`". -/
theorem gather_apply {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (n : Fin R) :
    Host.gather d x idx (ix1 n)
      = x (ix1 (⟨min (idx (ix2 n (0 : Fin 1))).toInt.toNat (N - 1), by omega⟩ : Fin N)) := by
  obtain ⟨wf, rfl⟩ := eq_vecDims d h1 h2 h3 h4 h5 h6 h7
  exact vecDims_gather_apply hN wf x idx n

end VecGather

namespace Cert.ReferenceIdeal.RefValue

open Cert.ReferenceIdeal Cert.ReferenceIdeal.ReadP Idealize.ShloMosaic Idealize.ShloMosaic.ValueIdx

/-! ## Two scalar facts -/

/-- A 32-bit word whose signed value is a natural number `p` below `N`: the test "negative" fails, so the select keeps
    the word rather than the word shifted up by `c`, and clamping its signed value into `[0, N - 1]` leaves `p`. -/
theorem keep_of_toInt_eq (d c : BitVec 32) (N p : Nat) (hp : p < N) (h : d.toInt = (p : ℤ)) :
    min (Scalar.select (IntOp.cmpi .slt d 0#32) (IntOp.addi d c) d).toInt.toNat (N - 1) = p := by
  have hs : IntOp.cmpi .slt d 0#32 = 0#1 := by
    unfold IntOp.cmpi
    have : d.slt 0#32 = false := by
      rw [BitVec.slt_eq_decide, h]
      simp
    simp [this]
  rw [hs, select_zero, h]
  simp only [Int.toNat_natCast]
  omega

/-- The reciprocal square root where the argument is positive, and zero elsewhere, is nonnegative and never `+∞`:
    `1/√(+∞) = 0`, `1/√r` for a positive real `r` is a nonnegative real, and where the comparison fails the value is the
    zero word. -/
theorem select_rsqrt_fact (deg : Ideal .f32) :
    0 ≤ Scalar.select (FloatOps.cmpf .ogt deg (Ideal.ofBits .f32 0x00000000#32)) (FloatOps.hostUnary .rsqrt deg)
          (Ideal.ofBits .f32 0x00000000#32)
    ∧ Scalar.select (FloatOps.cmpf .ogt deg (Ideal.ofBits .f32 0x00000000#32)) (FloatOps.hostUnary .rsqrt deg)
          (Ideal.ofBits .f32 0x00000000#32) ≠ ⊤ := by
  rw [Ideal.ofBits_zero_f32, Ideal.hostUnary_rsqrt_def]
  show 0 ≤ Scalar.select (Ideal.cmp .ogt deg 0) (Ideal.rsqrt deg) 0
    ∧ Scalar.select (Ideal.cmp .ogt deg 0) (Ideal.rsqrt deg) 0 ≠ ⊤
  by_cases hd : (0 : EReal) < deg
  · have hc : Ideal.cmp .ogt deg 0 = 1#1 := by simp [Ideal.cmp, hd]
    rw [hc, select_one]
    induction deg using EReal.rec with
    | bot => exact absurd hd (by simp)
    | top => rw [Ideal.rsqrt_top]; exact ⟨le_refl _, EReal.zero_ne_top⟩
    | coe r =>
      have hr : 0 < r := by exact_mod_cast hd
      rw [Ideal.rsqrt_coe, if_neg (not_lt.mpr hr.le), if_neg hr.ne']
      exact ⟨by exact_mod_cast (inv_nonneg.mpr (Real.sqrt_nonneg r)), EReal.coe_ne_top _⟩
  · have hc : Ideal.cmp .ogt deg 0 = 0#1 := by simp [Ideal.cmp, hd]
    rw [hc, select_zero]
    exact ⟨le_refl _, EReal.zero_ne_top⟩

/-! ## The article convolution (N = 100000, E = 900000) -/

section Article

/-- The column broadcast of the factor reads, at (e, q), the column at (e, 0). -/
theorem idx39 (e : Fin 900000) (q : Fin 128) : idx_main_v39 (ix2 e q) = ix2 e (0 : Fin 1) :=
  funext fun a => Fin.ext (by match a with | ⟨0, _⟩ => rfl | ⟨1, _⟩ => rfl)
/-- The column of the factor reads, at (e, 0), the factor at e. -/
theorem idx38 (e : Fin 900000) : idx_main_v38 (ix2 e (0 : Fin 1)) = ix1 e :=
  funext fun a => Fin.ext (by match a with | ⟨0, _⟩ => rfl)
/-- The wrapped destination column reads, at (e, 0), the wrapped destination word of edge e. -/
theorem idx28 (e : Fin 900000) : idx_main_v28 (ix2 e (0 : Fin 1)) = ix1 e :=
  funext fun a => Fin.ext (by match a with | ⟨0, _⟩ => rfl)
/-- The raw destination column reads, at (e, 0), the destination word of edge e. -/
theorem idx42 (e : Fin 900000) : idx_main_v42 (ix2 e (0 : Fin 1)) = ix1 e :=
  funext fun a => Fin.ext (by match a with | ⟨0, _⟩ => rfl)
/-- The projection's left operand at (r, q), k is the feature (r, k) … -/
theorem lidx4 (r : Fin 100000) (q : Fin 128) (k : Fin 256) : lidx_main_v4 (ix2 r q) k = ix2 r k :=
  funext fun a => Fin.ext (by match a with | ⟨0, _⟩ => rfl | ⟨1, _⟩ => rfl)
/-- … and its right operand the weight (k, q). -/
theorem ridx4 (r : Fin 100000) (q : Fin 128) (k : Fin 256) : ridx_main_v4 (ix2 r q) k = ix2 k q :=
  funext fun a => Fin.ext (by match a with | ⟨0, _⟩ => rfl | ⟨1, _⟩ => rfl)

/-- The gathered rows of the projection: row e is the projection's row "source of e, wrapped and clamped". -/
theorem rows_art_apply (x0 : (⟨S100000x256, .f32⟩ : BufTy).Contents (Elt Ideal))
    (x2 : (⟨S2x800000, .i32⟩ : BufTy).Contents (Elt Ideal)) (x6 : (⟨S256x128, .f32⟩ : BufTy).Contents (Elt Ideal))
    (e : Fin 900000) (q : Fin 128) :
    val_main_v37 (F := Ideal) x0 x2 x6 (ix2 e q)
      = val_main_v4 (F := Ideal) x0 x6
          (ix2 (Hetero.clampRow 100000 (by decide) (val_main_v36 (F := Ideal) x2) e) q) := by
  unfold val_main_v37
  generalize val_main_v4 (F := Ideal) x0 x6 = h
  generalize val_main_v36 (F := Ideal) x2 = idx
  exact RowGather.gather_apply (by decide) _ rfl rfl rfl rfl rfl rfl rfl h idx e q

/-- The source-side weight of edge e: the weight of the node "source of e, wrapped and clamped". -/
theorem wsrc_art_apply (x2 : (⟨S2x800000, .i32⟩ : BufTy).Contents (Elt Ideal)) (e : Fin 900000) :
    val_main_v22 (F := Ideal) x2 (ix1 e)
      = val_main_v15 (F := Ideal) x2
          (ix1 (Hetero.clampRow 100000 (by decide) (val_main_v21 (F := Ideal) x2) e)) := by
  unfold val_main_v22
  generalize val_main_v15 (F := Ideal) x2 = t
  generalize val_main_v21 (F := Ideal) x2 = idx
  exact VecGather.gather_apply (by decide) _ rfl rfl rfl rfl rfl rfl rfl t idx e

/-- The destination-side weight of edge e: the weight of the node "destination of e, wrapped and clamped". -/
theorem wdst_art_apply (x2 : (⟨S2x800000, .i32⟩ : BufTy).Contents (Elt Ideal)) (e : Fin 900000) :
    val_main_v29 (F := Ideal) x2 (ix1 e)
      = val_main_v15 (F := Ideal) x2
          (ix1 (Hetero.clampRow 100000 (by decide) (val_main_v28 (F := Ideal) x2) e)) := by
  unfold val_main_v29
  generalize val_main_v15 (F := Ideal) x2 = t
  generalize val_main_v28 (F := Ideal) x2 = idx
  exact VecGather.gather_apply (by decide) _ rfl rfl rfl rfl rfl rfl rfl t idx e

/-- THE UPDATE OF EDGE e AT COLUMN q: the projected source row's entry times the product of the two weights. -/
theorem upd_art_apply (x0 : (⟨S100000x256, .f32⟩ : BufTy).Contents (Elt Ideal))
    (x2 : (⟨S2x800000, .i32⟩ : BufTy).Contents (Elt Ideal)) (x6 : (⟨S256x128, .f32⟩ : BufTy).Contents (Elt Ideal))
    (e : Fin 900000) (q : Fin 128) :
    val_main_v40 (F := Ideal) x0 x2 x6 (ix2 e q)
      = (∑ k : Fin 256, x0 (ix2 (Hetero.clampRow 100000 (by decide) (val_main_v36 (F := Ideal) x2) e) k) * x6 (ix2 k q))
        * (val_main_v15 (F := Ideal) x2 (ix1 (Hetero.clampRow 100000 (by decide) (val_main_v21 (F := Ideal) x2) e))
            * val_main_v15 (F := Ideal) x2 (ix1 (Hetero.clampRow 100000 (by decide) (val_main_v28 (F := Ideal) x2) e))) := by
  rw [val_main_v40_apply, val_main_v39_apply, idx39, val_main_v38_apply, idx38, val_main_v30_apply,
    rows_art_apply, wsrc_art_apply, wdst_art_apply, val_main_v4_apply]
  simp only [lidx4, ridx4, Ideal.mulf_def]

/-- The program builds the wrapped source column twice, once for the weights and once for the rows: one column. -/
theorem src_col_art (x2 : (⟨S2x800000, .i32⟩ : BufTy).Contents (Elt Ideal)) :
    val_main_v21 (F := Ideal) x2 = val_main_v36 (F := Ideal) x2 := rfl

/-- When the raw destination word of edge e, read signed, is the node p, the wrapped and clamped destination is p. -/
theorem dst_row_art (x2 : (⟨S2x800000, .i32⟩ : BufTy).Contents (Elt Ideal)) (e : Fin 900000) (p : Fin 100000)
    (h : (val_main_v42 (F := Ideal) x2 (ix2 e (0 : Fin 1))).toInt = (p.val : ℤ)) :
    Hetero.clampRow 100000 (by decide) (val_main_v28 (F := Ideal) x2) e = p := by
  rw [val_main_v42_apply, idx42] at h
  refine Fin.ext ?_
  show min (val_main_v28 (F := Ideal) x2 (ix2 e (0 : Fin 1))).toInt.toNat (100000 - 1) = p.val
  rw [val_main_v28_apply, idx28, val_main_v27_apply, val_main_v24_apply, val_main_v26_apply, val_main_v23_apply,
    val_main_c_4_apply]
  exact keep_of_toInt_eq _ _ 100000 p.val p.isLt h

/-- The node weights are nonnegative and never `+∞`. -/
theorem dinv_art_fact (x2 : (⟨S2x800000, .i32⟩ : BufTy).Contents (Elt Ideal)) (r : Fin 100000) :
    0 ≤ val_main_v15 (F := Ideal) x2 (ix1 r) ∧ val_main_v15 (F := Ideal) x2 (ix1 r) ≠ ⊤ := by
  rw [val_main_v15_apply, val_main_v13_apply, val_main_v14_apply, val_main_v12_apply, val_main_cst_1_apply,
    val_main_call0_v1_apply, val_main_call0_v0_apply, val_main_cst_2_apply, Ideal.ofBits_def]
  exact select_rsqrt_fact _

end Article

/-! ## The software convolution (N = 50000, E = 450000) -/

section Software

/-- The column broadcast of the factor reads, at (e, q), the column at (e, 0). -/
theorem idx86 (e : Fin 450000) (q : Fin 128) : idx_main_v86 (ix2 e q) = ix2 e (0 : Fin 1) :=
  funext fun a => Fin.ext (by match a with | ⟨0, _⟩ => rfl | ⟨1, _⟩ => rfl)
/-- The column of the factor reads, at (e, 0), the factor at e. -/
theorem idx85 (e : Fin 450000) : idx_main_v85 (ix2 e (0 : Fin 1)) = ix1 e :=
  funext fun a => Fin.ext (by match a with | ⟨0, _⟩ => rfl)
/-- The wrapped destination column reads, at (e, 0), the wrapped destination word of edge e. -/
theorem idx75 (e : Fin 450000) : idx_main_v75 (ix2 e (0 : Fin 1)) = ix1 e :=
  funext fun a => Fin.ext (by match a with | ⟨0, _⟩ => rfl)
/-- The raw destination column reads, at (e, 0), the destination word of edge e. -/
theorem idx89 (e : Fin 450000) : idx_main_v89 (ix2 e (0 : Fin 1)) = ix1 e :=
  funext fun a => Fin.ext (by match a with | ⟨0, _⟩ => rfl)
/-- The projection's left operand at (r, q), k is the feature (r, k) … -/
theorem lidx51 (r : Fin 50000) (q : Fin 128) (k : Fin 256) : lidx_main_v51 (ix2 r q) k = ix2 r k :=
  funext fun a => Fin.ext (by match a with | ⟨0, _⟩ => rfl | ⟨1, _⟩ => rfl)
/-- … and its right operand the weight (k, q). -/
theorem ridx51 (r : Fin 50000) (q : Fin 128) (k : Fin 256) : ridx_main_v51 (ix2 r q) k = ix2 k q :=
  funext fun a => Fin.ext (by match a with | ⟨0, _⟩ => rfl | ⟨1, _⟩ => rfl)

/-- The gathered rows of the projection: row e is the projection's row "source of e, wrapped and clamped". -/
theorem rows_soft_apply (x1 : (⟨S50000x256, .f32⟩ : BufTy).Contents (Elt Ideal))
    (x3 : (⟨S2x400000, .i32⟩ : BufTy).Contents (Elt Ideal)) (x8 : (⟨S256x128, .f32⟩ : BufTy).Contents (Elt Ideal))
    (e : Fin 450000) (q : Fin 128) :
    val_main_v84 (F := Ideal) x1 x3 x8 (ix2 e q)
      = val_main_v51 (F := Ideal) x1 x8
          (ix2 (Hetero.clampRow 50000 (by decide) (val_main_v83 (F := Ideal) x3) e) q) := by
  unfold val_main_v84
  generalize val_main_v51 (F := Ideal) x1 x8 = h
  generalize val_main_v83 (F := Ideal) x3 = idx
  exact RowGather.gather_apply (by decide) _ rfl rfl rfl rfl rfl rfl rfl h idx e q

/-- The source-side weight of edge e: the weight of the node "source of e, wrapped and clamped". -/
theorem wsrc_soft_apply (x3 : (⟨S2x400000, .i32⟩ : BufTy).Contents (Elt Ideal)) (e : Fin 450000) :
    val_main_v69 (F := Ideal) x3 (ix1 e)
      = val_main_v62 (F := Ideal) x3
          (ix1 (Hetero.clampRow 50000 (by decide) (val_main_v68 (F := Ideal) x3) e)) := by
  unfold val_main_v69
  generalize val_main_v62 (F := Ideal) x3 = t
  generalize val_main_v68 (F := Ideal) x3 = idx
  exact VecGather.gather_apply (by decide) _ rfl rfl rfl rfl rfl rfl rfl t idx e

/-- The destination-side weight of edge e: the weight of the node "destination of e, wrapped and clamped". -/
theorem wdst_soft_apply (x3 : (⟨S2x400000, .i32⟩ : BufTy).Contents (Elt Ideal)) (e : Fin 450000) :
    val_main_v76 (F := Ideal) x3 (ix1 e)
      = val_main_v62 (F := Ideal) x3
          (ix1 (Hetero.clampRow 50000 (by decide) (val_main_v75 (F := Ideal) x3) e)) := by
  unfold val_main_v76
  generalize val_main_v62 (F := Ideal) x3 = t
  generalize val_main_v75 (F := Ideal) x3 = idx
  exact VecGather.gather_apply (by decide) _ rfl rfl rfl rfl rfl rfl rfl t idx e

/-- THE UPDATE OF EDGE e AT COLUMN q: the projected source row's entry times the product of the two weights. -/
theorem upd_soft_apply (x1 : (⟨S50000x256, .f32⟩ : BufTy).Contents (Elt Ideal))
    (x3 : (⟨S2x400000, .i32⟩ : BufTy).Contents (Elt Ideal)) (x8 : (⟨S256x128, .f32⟩ : BufTy).Contents (Elt Ideal))
    (e : Fin 450000) (q : Fin 128) :
    val_main_v87 (F := Ideal) x1 x3 x8 (ix2 e q)
      = (∑ k : Fin 256, x1 (ix2 (Hetero.clampRow 50000 (by decide) (val_main_v83 (F := Ideal) x3) e) k) * x8 (ix2 k q))
        * (val_main_v62 (F := Ideal) x3 (ix1 (Hetero.clampRow 50000 (by decide) (val_main_v68 (F := Ideal) x3) e))
            * val_main_v62 (F := Ideal) x3 (ix1 (Hetero.clampRow 50000 (by decide) (val_main_v75 (F := Ideal) x3) e))) := by
  rw [val_main_v87_apply, val_main_v86_apply, idx86, val_main_v85_apply, idx85, val_main_v77_apply,
    rows_soft_apply, wsrc_soft_apply, wdst_soft_apply, val_main_v51_apply]
  simp only [lidx51, ridx51, Ideal.mulf_def]

/-- The program builds the wrapped source column twice, once for the weights and once for the rows: one column. -/
theorem src_col_soft (x3 : (⟨S2x400000, .i32⟩ : BufTy).Contents (Elt Ideal)) :
    val_main_v68 (F := Ideal) x3 = val_main_v83 (F := Ideal) x3 := rfl

/-- When the raw destination word of edge e, read signed, is the node p, the wrapped and clamped destination is p. -/
theorem dst_row_soft (x3 : (⟨S2x400000, .i32⟩ : BufTy).Contents (Elt Ideal)) (e : Fin 450000) (p : Fin 50000)
    (h : (val_main_v89 (F := Ideal) x3 (ix2 e (0 : Fin 1))).toInt = (p.val : ℤ)) :
    Hetero.clampRow 50000 (by decide) (val_main_v75 (F := Ideal) x3) e = p := by
  rw [val_main_v89_apply, idx89] at h
  refine Fin.ext ?_
  show min (val_main_v75 (F := Ideal) x3 (ix2 e (0 : Fin 1))).toInt.toNat (50000 - 1) = p.val
  rw [val_main_v75_apply, idx75, val_main_v74_apply, val_main_v71_apply, val_main_v73_apply, val_main_v70_apply,
    val_main_c_15_apply]
  exact keep_of_toInt_eq _ _ 50000 p.val p.isLt h

/-- The node weights are nonnegative and never `+∞`. -/
theorem dinv_soft_fact (x3 : (⟨S2x400000, .i32⟩ : BufTy).Contents (Elt Ideal)) (r : Fin 50000) :
    0 ≤ val_main_v62 (F := Ideal) x3 (ix1 r) ∧ val_main_v62 (F := Ideal) x3 (ix1 r) ≠ ⊤ := by
  rw [val_main_v62_apply, val_main_v60_apply, val_main_v61_apply, val_main_v59_apply, val_main_cst_11_apply,
    val_main_call1_v1_apply, val_main_call1_v0_apply, val_main_cst_12_apply, Ideal.ofBits_def]
  exact select_rsqrt_fact _

end Software

end Cert.ReferenceIdeal.RefValue

end
-- ==== Proof.LibScatterAddLaw.lean ====
/-
  The one algebraic law of the segment sums, and where a row update of a scatter-add lands.

  A row scatter-add takes a table of `N` rows of `C` entries, a column of `E` start indices and `E` update rows of
  `C` entries; update row `e` is added into the table's row "start index `e`" (read as a signed integer; an update
  whose row falls outside the table is dropped). At the extended reals entry `(p, q)` of the result is the table's
  entry plus the exact sum of the update entries that land there.

  * `rowScatter_lands`: update `(e, q)` lands on table row `p` only if start index `e`, read signed, is `p`.
    The landing row is, on the row axis, the start plus a window coordinate; the row axis is an inserted window axis, so
    the window coordinate is `0`, and the start is the start index read off the index column at row `e`.
  * `sum_mul_of_nonneg_of_ne_top`: `(Σ_j f j) · c = Σ_j f j · c` on the extended reals when `0 ≤ c` and `c ≠ ⊤`
    (for such `c` the product distributes over a sum of two terms whatever their signs and infinities; induct on the
    finite index set).
  * `seg_law`: scattering into the zero table and then scaling row `p` by `c p` (nonnegative, not `⊤`) equals
    scattering updates that were each scaled beforehand by the factor of the row they land on:
        (Σ_{e lands on p} u(e, q)) · c(p) = Σ_{e lands on p} (u(e, q) · c(p)).
    This is the symmetric normalisation of a graph convolution computed two ways: the destination-side factor applied
    once to the aggregated row, or to every message before aggregation.

  Every extent is generic.
-/
import Idealize.ShloMosaic.PureOps.Ideal.Laws
import Idealize.ShloMosaic.Lib.ValueIdx

noncomputable section

open scoped BigOperators

namespace Hetero

open Idealize.ShloMosaic Idealize.ShloMosaic.ValueIdx

/-- The dimension numbers of the row scatter, for an operand `[N, C]`, scatter indices `[E, 1]` and updates `[E, C]`:
    window axes `[1]`, inserted axes `[0]`, the start index naming operand axis `0`, the index vector on axis `1`.
    Their side conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Under the literal record, the window of update `(e, q)` starts, on the row axis, at start index `e` read signed:
    the start index names the row axis, and it is read off the index column at the update's row. -/
theorem rowScatterDims_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Under the literal record, the window coordinate on the row axis is `0`: the row axis is an inserted one. -/
theorem rowScatterDims_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  have h0 : (0 : Fin 2) ∉ (rowScatterDims N E C wf).sKept := fun h =>
    (of_decide_eq_true (List.mem_filter.mp h).2) (List.mem_singleton.mpr rfl)
  rw [dif_neg h0]

/-- A record with the row scatter's four fields is the literal record. -/
theorem eq_rowScatterDims {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) : ∃ wf, D = rowScatterDims N E C wf := by
  obtain ⟨uw, iw, sd, iv, wf⟩ := D
  simp only at h1 h2 h3 h4
  subst h1 h2 h3 h4
  exact ⟨wf, rfl⟩

/-- WHERE A ROW UPDATE LANDS: under any record whose lists are the row scatter's, update `(e, q)` lands on operand row
    `p` only if start index `e`, read as a signed integer, is `p`. The landing row is the start plus the window
    coordinate `0`, and an update lands only where that is inside the operand, in particular not negative. -/
theorem rowScatter_lands {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1)
    (idx : IVec ⟨2, ![E, 1]⟩ 32) (e : Fin E) (q : Fin C) (p : Fin N) (q' : Fin C)
    (h : D.resultIdx? (ix2 e q) idx = some (ix2 p q')) : (idx (ix2 e (0 : Fin 1))).toInt = (p.val : ℤ) := by
  obtain ⟨wf, rfl⟩ := eq_rowScatterDims D h1 h2 h3 h4
  unfold ScatterDims.resultIdx? at h
  split at h
  · rename_i hb
    have h0 := congrFun (Option.some.inj h) (0 : Fin 2)
    have hv : ((rowScatterDims N E C wf).start (ix2 e q) idx 0
        + ((rowScatterDims N E C wf).window (ix2 e q) 0 : ℕ)).toNat = p.val := congrArg Fin.val h0
    have hb0 := (hb 0).1
    rw [rowScatterDims_start0, rowScatterDims_window0] at hb0 hv
    omega
  · exact absurd h (by simp)

/-- On the extended reals, multiplication by a factor `c` with `0 ≤ c` and `c ≠ ⊤` distributes over a finite sum. -/
theorem sum_mul_of_nonneg_of_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- THE SEGMENT-SUM LAW: a row scatter-add into the zero array, then row `p` scaled by a factor `c p` that is
    nonnegative and not `⊤`, is the row scatter-add of the updates each scaled by the factor of the row it lands on.
    Entry `(p, q)` of the left side is `(Σ_{j landing on (p, q)} updK j) · c p`; the factor goes inside the finite sum,
    and every update `j = (e, q₂)` of that sum has start index `p`, where the two update arrays are related by hypothesis. -/
theorem seg_law {N E C : ℕ} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1)
    (idx : IVec ⟨2, ![E, 1]⟩ 32) (Z : FVec Ideal ⟨2, ![N, C]⟩ .f32) (hZ : ∀ i, Z i = 0)
    (updK updR : FVec Ideal ⟨2, ![E, C]⟩ .f32) (c : Fin N → EReal) (hc : ∀ p, 0 ≤ c p ∧ c p ≠ ⊤)
    (hupd : ∀ (e : Fin E) (q : Fin C) (p : Fin N), (idx (ix2 e (0 : Fin 1))).toInt = (p.val : ℤ) →
      updK (ix2 e q) * c p = updR (ix2 e q))
    (p : Fin N) (q : Fin C) :
    Host.scatterAdd (F := Ideal) D Z idx updK (ix2 p q) * c p = Host.scatterAdd (F := Ideal) D Z idx updR (ix2 p q) := by
  show Ideal.hostScatterAdd D Z idx updK (ix2 p q) * c p = Ideal.hostScatterAdd D Z idx updR (ix2 p q)
  unfold Ideal.hostScatterAdd
  rw [hZ (ix2 p q), zero_add, zero_add, sum_mul_of_nonneg_of_ne_top _ _ (hc p).1 (hc p).2]
  refine Finset.sum_congr rfl fun j hj => ?_
  have hj' := (Finset.mem_filter.mp hj).2
  obtain ⟨e, q₂, rfl⟩ : ∃ (e : Fin E) (q₂ : Fin C), j = ix2 e q₂ := ⟨j 0, j 1, eq_ix2 j⟩
  exact hupd e q₂ p (rowScatter_lands D h1 h2 h3 h4 idx e q₂ p q hj')

end Hetero

end
-- ==== Proof.SegLaw.lean ====
/-
  The word of zero is the extended real zero; the algebraic law of the segment sums is in LibScatterAddLaw.lean.
-/
import proofs.«119477_j88364657147989_2_alg».proof.Proof.LibScatterAddLaw
import proofs.«119477_j88364657147989_2_alg».proof.Proof.Spec

noncomputable section

namespace Hetero

open Idealize.ShloMosaic

/-- The word of zero is the extended real `0`. -/
theorem zero32_eq : Hetero.zero32 = 0 := Ideal.ofBits_zero_f32

end Hetero

end
-- ==== Proof.Bridge.lean ====
/-
  The tiled program's two results are the reference's two result stages.

  Both programs end in the same entrywise combination (destination-side scale or none, bias, the neighbour-mean
  branch, the average, the clip); the stages feeding it are shared, except the aggregated array:
    * the tiled program scatter-adds, by destination, the gathered rows of the projection whose row r is scaled by
      the node weight dinv(r), and scales row p of the sum by dinv(p) inside the combination;
    * the reference scatter-adds the updates  (x·W)(s(e), q) · (dinv(s(e)) · dinv(d(e)))  and adds the bias directly.
  `seg_bridge` proves, for any numbers of nodes and edges, that the first aggregated array with its row p scaled by
  dinv(p) is the second: the destination-side weight goes inside the finite sum because it is nonnegative and not
  +∞ (the segment-sum law), every update landing on row p has clamped destination p, and what is left entry by entry
  is (a · b) · c = a · (b · c). `seg_art` and `seg_soft` are its two instances, with the facts about the reference's
  index columns and node weights; `artK_eq` and `softK_eq` then read both sides at an entry (p, q), where they are
  the same expression.
-/
import proofs.«119477_j88364657147989_2_alg».proof.Proof.KTerms
import proofs.«119477_j88364657147989_2_alg».proof.Proof.RefResults
import proofs.«119477_j88364657147989_2_alg».proof.Proof.RefUpdates
import proofs.«119477_j88364657147989_2_alg».proof.Proof.SegLaw
import proofs.«119477_j88364657147989_2_alg».proof.Proof.LibRowGather

noncomputable section

open scoped BigOperators

namespace Hetero

open Idealize.ShloMosaic Idealize.ShloMosaic.ValueIdx

/-- THE SEGMENT SUM, TWO WAYS, for one convolution over `N` nodes and `E` edges. Let `dinv` be node weights that
    are nonnegative and never `⊤`. Scatter-add, by the raw destination column, the gathered rows of the projection
    whose row `r` is scaled by `dinv r`, and then scale row `p` of the result by `dinv p`: that is the scatter-add
    of the updates `upd (e, q) = (Σ_k x(s e, k) · w(k, q)) · (dinv (s e) · dinv (d e))`, where `s e` is the clamped
    source row and `d e` the clamped destination row, as soon as `d e = p` whenever the raw destination word of `e`,
    read signed, is `p`. Entry by entry this is `(a · b) · c = a · (b · c)` under the segment-sum law. -/
theorem seg_bridge {N E : ℕ} (hN : 0 < N)
    (D : ScatterDims ⟨2, ![N, 128]⟩ ⟨2, ![E, 1]⟩ ⟨2, ![E, 128]⟩)
    (h1 : D.updateWindowDims = [1]) (h2 : D.insertedWindowDims = [0]) (h3 : D.scatterDimsToOperandDims = [0])
    (h4 : D.indexVectorDim = 1)
    (G : GatherDims ⟨2, ![N, 128]⟩ ⟨2, ![E, 1]⟩ ⟨2, ![E, 128]⟩)
    (g1 : G.offsetDims = [1]) (g2 : G.collapsedSliceDims = [0]) (g3 : G.operandBatchingDims = [])
    (g4 : G.startIndicesBatchingDims = []) (g5 : G.startIndexMap = [0]) (g6 : G.indexVectorDim = 1)
    (g7 : G.sliceSizes = ![1, 128])
    (x : FVec Ideal ⟨2, ![N, 256]⟩ .f32) (w : FVec Ideal ⟨2, ![256, 128]⟩ .f32) (dinv : FVec Ideal ⟨1, ![N]⟩ .f32)
    (hd : ∀ r : Fin N, 0 ≤ dinv (ix1 r) ∧ dinv (ix1 r) ≠ ⊤)
    (Z : FVec Ideal ⟨2, ![N, 128]⟩ .f32) (hZ : ∀ i, Z i = 0)
    (dstRaw srcRows srcW dstW : IVec ⟨2, ![E, 1]⟩ 32)
    (updR : FVec Ideal ⟨2, ![E, 128]⟩ .f32)
    (hupdR : ∀ (e : Fin E) (q : Fin 128), updR (ix2 e q)
        = (∑ k : Fin 256, x (ix2 (clampRow N hN srcRows e) k) * w (ix2 k q))
          * (dinv (ix1 (clampRow N hN srcW e)) * dinv (ix1 (clampRow N hN dstW e))))
    (hsrc : srcW = srcRows)
    (hdst : ∀ (e : Fin E) (p : Fin N), (dstRaw (ix2 e (0 : Fin 1))).toInt = (p.val : ℤ) → clampRow N hN dstW e = p)
    (p : Fin N) (q : Fin 128) :
    Host.scatterAdd (F := Ideal) D Z dstRaw (Host.gather G (projScaled x w (colOf dinv)) srcRows) (ix2 p q) * dinv (ix1 p)
      = Host.scatterAdd (F := Ideal) D Z dstRaw updR (ix2 p q) := by
  refine seg_law D h1 h2 h3 h4 dstRaw Z hZ _ updR (fun r => dinv (ix1 r)) hd ?_ p q
  intro e q' r h
  show Host.gather G (projScaled x w (colOf dinv)) srcRows (ix2 e q') * dinv (ix1 r) = updR (ix2 e q')
  rw [RowGather.gather_apply hN G g1 g2 g3 g4 g5 g6 g7 _ srcRows e q']
  show projScaled x w (colOf dinv) (ix2 (clampRow N hN srcRows e) q') * dinv (ix1 r) = updR (ix2 e q')
  rw [projScaled_apply, colOf_apply, hupdR, hsrc, hdst e r h, mul_assoc]

end Hetero

namespace Cert.ReferenceIdeal.RefValue

open Cert.ReferenceIdeal Cert.ReferenceIdeal.ReadP Idealize.ShloMosaic Idealize.ShloMosaic.ValueIdx

/-- The array the article scatter-add starts from is zero everywhere. -/
theorem zero_art (i : S100000x128.Idx) : val_main_v41 (F := Ideal) i = 0 := by
  rw [val_main_v41_apply, val_main_cst_8_apply, Ideal.ofBits_def, Ideal.ofBits_zero_f32]

/-- The array the software scatter-add starts from is zero everywhere. -/
theorem zero_soft (i : S50000x128.Idx) : val_main_v88 (F := Ideal) i = 0 := by
  rw [val_main_v88_apply, val_main_cst_19_apply, Ideal.ofBits_def, Ideal.ofBits_zero_f32]

/-- Articles: the tiled program's aggregated row p, scaled by the weight of node p, is the reference's aggregated row p. -/
theorem seg_art (x0 : (⟨S100000x256, .f32⟩ : BufTy).Contents (Elt Ideal)) (x2 : (⟨S2x800000, .i32⟩ : BufTy).Contents (Elt Ideal))
    (x6 : (⟨S256x128, .f32⟩ : BufTy).Contents (Elt Ideal)) (p : Fin 100000) (q : Fin 128) :
    segA x0 x2 x6 (ix2 p q) * val_main_v15 (F := Ideal) x2 (ix1 p) = val_main_v43 (F := Ideal) x0 x2 x6 (ix2 p q) := by
  unfold segA val_main_v43
  exact Hetero.seg_bridge (by decide) scatter_S100000x128_S900000x1_S900000x128_1_0_0_1 rfl rfl rfl rfl
    gather_S100000x128_S900000x1_S900000x128_1_0_n_n_0_1_1128 rfl rfl rfl rfl rfl rfl rfl
    x0 x6 (val_main_v15 (F := Ideal) x2) (dinv_art_fact x2) (val_main_v41 (F := Ideal)) zero_art
    (val_main_v42 (F := Ideal) x2) (val_main_v36 (F := Ideal) x2) (val_main_v21 (F := Ideal) x2)
    (val_main_v28 (F := Ideal) x2) (val_main_v40 (F := Ideal) x0 x2 x6) (upd_art_apply x0 x2 x6) (src_col_art x2)
    (dst_row_art x2) p q

/-- Software: the same over its own graph. -/
theorem seg_soft (x1 : (⟨S50000x256, .f32⟩ : BufTy).Contents (Elt Ideal)) (x3 : (⟨S2x400000, .i32⟩ : BufTy).Contents (Elt Ideal))
    (x8 : (⟨S256x128, .f32⟩ : BufTy).Contents (Elt Ideal)) (p : Fin 50000) (q : Fin 128) :
    segS x1 x3 x8 (ix2 p q) * val_main_v62 (F := Ideal) x3 (ix1 p) = val_main_v90 (F := Ideal) x1 x3 x8 (ix2 p q) := by
  unfold segS val_main_v90
  exact Hetero.seg_bridge (by decide) scatter_S50000x128_S450000x1_S450000x128_1_0_0_1 rfl rfl rfl rfl
    gather_S50000x128_S450000x1_S450000x128_1_0_n_n_0_1_1128 rfl rfl rfl rfl rfl rfl rfl
    x1 x8 (val_main_v62 (F := Ideal) x3) (dinv_soft_fact x3) (val_main_v88 (F := Ideal)) zero_soft
    (val_main_v89 (F := Ideal) x3) (val_main_v83 (F := Ideal) x3) (val_main_v68 (F := Ideal) x3)
    (val_main_v75 (F := Ideal) x3) (val_main_v87 (F := Ideal) x1 x3 x8) (upd_soft_apply x1 x3 x8) (src_col_soft x3)
    (dst_row_soft x3) p q

/-- THE ARTICLE RESULT of the tiled program is the reference's. -/
theorem artK_eq (x0 : (⟨S100000x256, .f32⟩ : BufTy).Contents (Elt Ideal)) (x1 : (⟨S50000x256, .f32⟩ : BufTy).Contents (Elt Ideal))
    (x2 : (⟨S2x800000, .i32⟩ : BufTy).Contents (Elt Ideal)) (x4 x5 : (⟨S800000, .i32⟩ : BufTy).Contents (Elt Ideal))
    (x6 : (⟨S256x128, .f32⟩ : BufTy).Contents (Elt Ideal)) (x7 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S256x128, .f32⟩ : BufTy).Contents (Elt Ideal)) :
    artK x0 x1 x2 x4 x5 x6 x7 x10 x11 x12 = val_main_v122 (F := Ideal) x0 x1 x2 x4 x5 x6 x7 x10 x11 x12 := by
  funext i
  obtain ⟨p, q, rfl⟩ : ∃ (p : Fin 100000) (q : Fin 128), i = ix2 p q := ⟨i 0, i 1, eq_ix2 i⟩
  unfold artK
  rw [Hetero.combineArt_apply, Hetero.colOf_apply, Hetero.rowOf_apply, Hetero.rowOf_apply, art_apply, seg_art]

/-- THE SOFTWARE RESULT of the tiled program is the reference's. -/
theorem softK_eq (x1 : (⟨S50000x256, .f32⟩ : BufTy).Contents (Elt Ideal)) (x3 : (⟨S2x400000, .i32⟩ : BufTy).Contents (Elt Ideal))
    (x8 : (⟨S256x128, .f32⟩ : BufTy).Contents (Elt Ideal)) (x9 : (⟨S128, .f32⟩ : BufTy).Contents (Elt Ideal)) :
    softK x1 x3 x8 x9 = val_main_v123 (F := Ideal) x1 x3 x8 x9 := by
  funext i
  obtain ⟨p, q, rfl⟩ : ∃ (p : Fin 50000) (q : Fin 128), i = ix2 p q := ⟨i 0, i 1, eq_ix2 i⟩
  unfold softK
  rw [Hetero.combineSoft_apply, Hetero.colOf_apply, Hetero.rowOf_apply, soft_apply, seg_soft]

end Cert.ReferenceIdeal.RefValue

end
-- ==== Proof.KRunFrame.lean ====
/-
  The idealized kernel program's run with its final buffers named.

  The program is four tiled regions among stretches of host operations. Its run is the chain of those twelve
  segments; at every boundary the TensorCore's buffers hold a known valuation (`Gen.W0` … `Gen.W12`: a stretch applies
  its operations, a region replaces its arrays by what its write-backs leave). Here the run is stated with EVERY
  unscoped buffer of the final state at the last boundary's valuation `Gen.W12`, from which each result array — and
  each argument — is then read.
-/
import proofs.«119477_j88364657147989_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every unscoped
    TensorCore buffer holds the last boundary's valuation. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.KRun

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«119477_j88364657147989_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Sums along the feature axis, and the keep-dimension column forms, read at an entry.

  A tile with nodes down its rows and features across its columns is reduced along axis 1: the result at row p is
  the sum of that row's b entries. On the extended reals the reduction from the zero accumulator is that plain
  sum. A per-row statistic is then kept as a one-column matrix: a length-a vector cast to [a, 1] reads its entry
  p at (p, 0), and the column broadcast across b columns reads (p, 0) at every (p, c). Every extent is generic.
-/
import Idealize.ShloMosaic.PureOps.Ideal.Laws
import Idealize.ShloMosaic.Lib.ValueIdx
import Idealize.ShloMosaic.Lib.Pipeline.Value

namespace RowOps

open Idealize.ShloMosaic Idealize.ShloMosaic.ValueIdx

variable {a b : ℕ}

/-- Row p with the feature coordinate k put back on axis 1 is the entry (p, k). -/
theorem lift_row (h : Shape.Reduces ⟨2, ![a, b]⟩ [1] ⟨1, ![a]⟩) (p : Fin a) (k : Fin b) :
    h.lift (ix1 p) k = ix2 p k := by
  funext d
  apply Fin.ext
  match d with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- A sum along axis 1 from the zero accumulator, at row p: the sum of the row's b entries. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (lift_row h p k)

variable {α : Type}

/-- A length-a vector cast to the column [a, 1] reads, at (p, u), the vector's entry p. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast over [a, b] reads, at (p, c), the column's entry (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end RowOps
-- ==== Proof.RegionProj.lean ====
/-
  What the two projection regions leave in their output arrays.

  Each region runs the same tile body over row blocks of 2000: the block of features times the whole weight,
  each row then scaled by that row's weight. On the extended reals the narrowing casts in front of the product
  are the identity, so entry (p, q) of a tile is  (Σ_k x(p,k)·w(k,q)) · d(p,0).  Point t reads rows
  2000 t .. 2000 t + 1999 of the feature array and of the row-weight column, the whole weight, and writes rows
  2000 t .. 2000 t + 1999 of the output; the points' blocks tile the output, so after the region the output array
  is the scaled projection of the arrays the region found, entry by entry.
-/
import proofs.«119477_j88364657147989_2_alg».proof.Proof.Gen.KernelIdeal.Frame
import proofs.«119477_j88364657147989_2_alg».proof.Proof.Spec
import proofs.«119477_j88364657147989_2_alg».proof.Proof.LibDotRecord
import proofs.«119477_j88364657147989_2_alg».proof.Proof.LibRowOps
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access. -/
theorem offsetZero : (![0, 0] : Fin 2 → Nat) = fun _ => 0 := funext fun a => by fin_cases a <;> rfl

/-! ## Region 0: the projection of the 100000 source rows -/

/-- Entry (p, q) of the tile the body leaves: row p of the feature block times column q of the weight, scaled by
    the row's weight. The casts in front of the product and the two same-shape reshapes are the identity. -/
theorem pay0_apply (x0 : Vec Ideal S2000x256 .f32) (x1 : Vec Ideal S256x128 .f32) (x2 : Vec Ideal S2000x1 .f32)
    (p : Fin 2000) (q : Fin 128) :
    Gen.out0_3 x0 x1 x2 (ix2 p q) = (∑ k : Fin 256, x0 (ix2 p k) * x1 (ix2 k q)) * x2 (ix2 p (0 : Fin 1)) := by
  unfold Gen.out0_3
  rw [View.canon_unit_zero offsetZero]
  simp only [View.ld_unit_zero (S := S2000x256) offsetZero, View.ld_unit_zero (S := S256x128) offsetZero,
    View.ld_unit_zero (S := S2000x1) offsetZero]
  unfold Gen.k0_pay1
  refine (mulf_apply _ _ (ix2 p q)).trans ?_
  refine congrArg₂ (· * ·) ?_ ?_
  · exact DotRecord.matmul_zero_apply dot_S2000x256_S256x128_S2000x128_1_0_0_1_n_n rfl rfl rfl rfl rfl rfl
      (truncf .bf16 x0 bitsLt_bf16_f32) (truncf .bf16 x1 bitsLt_bf16_f32) none p q
  · refine (RowOps.broadcastTo_a1_ab_apply _ broadcasts_S2000x1_S2000x128 p q).trans ?_
    rw [shapeCast_self, shapeCast_self]

/-- The printed index maps over the 50 points: the row blocks move with the point, the weight stays at block (0, 0). -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The grid has 50 points. -/
theorem point_lt0 (t : Fin cfg0.N) : t.val < 50 := lt_of_lt_of_eq t.isLt Gen.N_0

/-- The array row that row p of the block at point t is: 2000 t + p. -/
def row0 (t : Fin cfg0.N) (p : Fin 2000) : Fin 100000 :=
  ⟨t.val * 2000 + p.val, by have := point_lt0 t; have := p.isLt; omega⟩

/-- Entry (p, k) of the feature block at point t is entry (2000 t + p, k) of the feature array. -/
theorem read0_0 (c : Dev nD) (t : Fin cfg0.N) (p : Fin 2000) (k : Fin 256) :
    Gen.iblk0 V c 0 t (ix2 p k) = V c main_arg0 (ix2 (row0 t p) k) := by
  obtain ⟨e0, e1, -⟩ := blockIndex0 t
  show V c main_arg0 (((cfg0.win 0).blk t).view.emb (ix2 p k)) = V c main_arg0 (ix2 (row0 t p) k)
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- The weight block is the whole weight array at every point. -/
theorem read0_1 (c : Dev nD) (t : Fin cfg0.N) (k : Fin 256) (q : Fin 128) :
    Gen.iblk0 V c 1 t (ix2 k q) = V c main_arg6 (ix2 k q) := by
  obtain ⟨-, -, e0, e1, -⟩ := blockIndex0 t
  show V c main_arg6 (((cfg0.win 1).blk t).view.emb (ix2 k q)) = V c main_arg6 (ix2 k q)
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- Entry (p, 0) of the row-weight block at point t is entry (2000 t + p, 0) of the row-weight column. -/
theorem read0_2 (c : Dev nD) (t : Fin cfg0.N) (p : Fin 2000) :
    Gen.iblk0 V c 2 t (ix2 p (0 : Fin 1)) = V c main_v15 (ix2 (row0 t p) (0 : Fin 1)) := by
  obtain ⟨-, -, -, -, e0, e1, -⟩ := blockIndex0 t
  show V c main_v15 (((cfg0.win 2).blk t).view.emb (ix2 p (0 : Fin 1))) = V c main_v15 (ix2 (row0 t p) (0 : Fin 1))
  refine congrArg _ (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

/-- Entry (p, q) of the output block at point t sits at (2000 t + p, q) of the output array. -/
theorem place0 (t : Fin cfg0.N) (p : Fin 2000) (q : Fin 128) :
    ((cfg0.win 3).blk t).view.emb (ix2 p q) = ix2 (row0 t p) q := by
  obtain ⟨-, -, -, -, -, -, e0, e1⟩ := blockIndex0 t
  refine funext fun a => Fin.ext ?_
  match a with
  | ⟨0, _⟩ => show win0_3.index t (0 : Fin 2) * 2000 + 1 * p.val = t.val * 2000 + p.val; rw [e0]; omega
  | ⟨1, _⟩ => show win0_3.index t (1 : Fin 2) * 128 + 1 * q.val = q.val; rw [e1]; omega

/-- What point t writes back is block t of the scaled projection of the arrays the region found. -/
theorem flushed0_eq (c : Dev nD) (t : Fin cfg0.N) :
    (Gen.dat0 (F := Ideal) V c).flushed 3 t
      = ((cfg0.win 3).blk t).view.read (Elt Ideal) (Hetero.projScaled (V c main_arg0) (V c main_arg6) (V c main_v15)) := by
  show (cfg0.win 3).cut (grid0.coords t) ((Gen.dat0 V c).after 3 t) = _
  rw [Gen.after0_3]
  refine funext fun (j : S2000x128.Idx) => ?_
  obtain ⟨p, q, rfl⟩ : ∃ (p : Fin 2000) (q : Fin 128), j = ix2 p q := ⟨j 0, j 1, eq_ix2 j⟩
  show Gen.out0_3 (Gen.iblk0 V c 0 t) (Gen.iblk0 V c 1 t) (Gen.iblk0 V c 2 t) (ix2 p q)
      = Hetero.projScaled (V c main_arg0) (V c main_arg6) (V c main_v15) (((cfg0.win 3).blk t).view.emb (ix2 p q))
  refine (pay0_apply (Gen.iblk0 V c 0 t) (Gen.iblk0 V c 1 t) (Gen.iblk0 V c 2 t) p q).trans ?_
  refine Eq.trans ?_ (congrArg (Hetero.projScaled (V c main_arg0) (V c main_arg6) (V c main_v15)) (place0 t p q)).symm
  refine Eq.trans ?_ (Hetero.projScaled_apply (V c main_arg0) (V c main_arg6) (V c main_v15) (row0 t p) q).symm
  exact congrArg₂ (· * ·)
    (Finset.sum_congr rfl fun k _ => congrArg₂ (· * ·) (read0_0 V c t p k) (read0_1 V c t k q)) (read0_2 V c t p)

/-- An index of the output array is in point t's block iff each coordinate is in the block's range on its axis. -/
theorem mem_block0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v16).slice (win0_3.rect t)).set ↔ _
  rw [View.set_slice_whole, Rect.mem_set_unit]
  exact Iff.rfl

/-- Every entry of the output array is written: row r by point r / 2000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := Gen.N_0
  let t : Fin cfg0.N := ⟨(i 0).val / 2000, by rw [hN]; omega⟩
  have ht : t.val = (i 0).val / 2000 := rfl
  obtain ⟨-, -, -, -, -, -, e0, e1⟩ := blockIndex0 t
  refine ⟨t, Gen.flush0_3 t, ?_⟩
  rw [mem_block0]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 128 ≤ (i 1).val ∧ (i 1).val < win0_3.index t (1 : Fin 2) * 128 + 128; rw [e1]; omega

/-- After region 0 the output array is the scaled projection of the arrays the region found. -/
theorem final0 (c : Dev nD) :
    (Gen.dat0 (F := Ideal) V c).arrAt 3 cfg0.N = Hetero.projScaled (V c main_arg0) (V c main_arg6) (V c main_v15) :=
  (Gen.dat0 (F := Ideal) V c).arrAt_eq_of_cover 3 (Hetero.projScaled (V c main_arg0) (V c main_arg6) (V c main_v15))
    (fun t _ => flushed0_eq V c t) cover0

/-! ## Region 1: the projection of the 50000 rows of the second node type -/

/-- Entry (p, q) of the tile the body leaves: row p of the feature block times column q of the weight, scaled by
    the row's weight. The casts in front of the product and the two same-shape reshapes are the identity. -/
theorem pay1_apply (x0 : Vec Ideal S2000x256 .f32) (x1 : Vec Ideal S256x128 .f32) (x2 : Vec Ideal S2000x1 .f32)
    (p : Fin 2000) (q : Fin 128) :
    Gen.out1_3 x0 x1 x2 (ix2 p q) = (∑ k : Fin 256, x0 (ix2 p k) * x1 (ix2 k q)) * x2 (ix2 p (0 : Fin 1)) := by
  unfold Gen.out1_3
  rw [View.canon_unit_zero offsetZero]
  simp only [View.ld_unit_zero (S := S2000x256) offsetZero, View.ld_unit_zero (S := S256x128) offsetZero,
    View.ld_unit_zero (S := S2000x1) offsetZero]
  unfold Gen.k1_pay1
  refine (mulf_apply _ _ (ix2 p q)).trans ?_
  refine congrArg₂ (· * ·) ?_ ?_
  · exact DotRecord.matmul_zero_apply dot_S2000x256_S256x128_S2000x128_1_0_0_1_n_n rfl rfl rfl rfl rfl rfl
      (truncf .bf16 x0 bitsLt_bf16_f32) (truncf .bf16 x1 bitsLt_bf16_f32) none p q
  · refine (RowOps.broadcastTo_a1_ab_apply _ broadcasts_S2000x1_S2000x128 p q).trans ?_
    rw [shapeCast_self, shapeCast_self]

/-- The printed index maps over the 25 points: the row blocks move with the point, the weight stays at block (0, 0). -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The grid has 25 points. -/
theorem point_lt1 (t : Fin cfg1.N) : t.val < 25 := lt_of_lt_of_eq t.isLt Gen.N_1

/-- The array row that row p of the block at point t is: 2000 t + p. -/
def row1 (t : Fin cfg1.N) (p : Fin 2000) : Fin 50000 :=
  ⟨t.val * 2000 + p.val, by have := point_lt1 t; have := p.isLt; omega⟩

/-- Entry (p, k) of the feature block at point t is entry (2000 t + p, k) of the feature array. -/
theorem read1_0 (c : Dev nD) (t : Fin cfg1.N) (p : Fin 2000) (k : Fin 256) :
    Gen.iblk1 V c 0 t (ix2 p k) = V c main_arg1 (ix2 (row1 t p) k) := by
  obtain ⟨e0, e1, -⟩ := blockIndex1 t
  show V c main_arg1 (((cfg1.win 0).blk t).view.emb (ix2 p k)) = V c main_arg1 (ix2 (row1 t p) k)
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- The weight block is the whole weight array at every point. -/
theorem read1_1 (c : Dev nD) (t : Fin cfg1.N) (k : Fin 256) (q : Fin 128) :
    Gen.iblk1 V c 1 t (ix2 k q) = V c main_arg8 (ix2 k q) := by
  obtain ⟨-, -, e0, e1, -⟩ := blockIndex1 t
  show V c main_arg8 (((cfg1.win 1).blk t).view.emb (ix2 k q)) = V c main_arg8 (ix2 k q)
  refine congrArg _ (funext fun a => Fin.ext ?_)
  match a with
  | ⟨0, _⟩ => show win1_1.index t (0 : Fin 2) * 256 + 1 * k.val = k.val; rw [e0]; omega
  | ⟨1, _⟩ => show win1_1.index t (1 : Fin 2) * 128 + 1 * q.val = q.val; rw [e1]; omega

/-- Entry (p, 0) of the row-weight block at point t is entry (2000 t + p, 0) of the row-weight column. -/
theorem read1_2 (c : Dev nD) (t : Fin cfg1.N) (p : Fin 2000) :
    Gen.iblk1 V c 2 t (ix2 p (0 : Fin 1)) = V c main_v42 (ix2 (row1 t p) (0 : Fin 1)) := by
  obtain ⟨-, -, -, -, e0, e1, -⟩ := blockIndex1 t
  show V c main_v42 (((cfg1.win 2).blk t).view.emb (ix2 p (0 : Fin 1))) = V c main_v42 (ix2 (row1 t p) (0 : Fin 1))
  refine congrArg _ (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 1 + 1 * 0 = 0; rw [e1]

/-- Entry (p, q) of the output block at point t sits at (2000 t + p, q) of the output array. -/
theorem place1 (t : Fin cfg1.N) (p : Fin 2000) (q : Fin 128) :
    ((cfg1.win 3).blk t).view.emb (ix2 p q) = ix2 (row1 t p) q := by
  obtain ⟨-, -, -, -, -, -, e0, e1⟩ := blockIndex1 t
  refine funext fun a => Fin.ext ?_
  match a with
  | ⟨0, _⟩ => show win1_3.index t (0 : Fin 2) * 2000 + 1 * p.val = t.val * 2000 + p.val; rw [e0]; omega
  | ⟨1, _⟩ => show win1_3.index t (1 : Fin 2) * 128 + 1 * q.val = q.val; rw [e1]; omega

/-- What point t writes back is block t of the scaled projection of the arrays the region found. -/
theorem flushed1_eq (c : Dev nD) (t : Fin cfg1.N) :
    (Gen.dat1 (F := Ideal) V c).flushed 3 t
      = ((cfg1.win 3).blk t).view.read (Elt Ideal) (Hetero.projScaled (V c main_arg1) (V c main_arg8) (V c main_v42)) := by
  show (cfg1.win 3).cut (grid1.coords t) ((Gen.dat1 V c).after 3 t) = _
  rw [Gen.after1_3]
  refine funext fun (j : S2000x128.Idx) => ?_
  obtain ⟨p, q, rfl⟩ : ∃ (p : Fin 2000) (q : Fin 128), j = ix2 p q := ⟨j 0, j 1, eq_ix2 j⟩
  show Gen.out1_3 (Gen.iblk1 V c 0 t) (Gen.iblk1 V c 1 t) (Gen.iblk1 V c 2 t) (ix2 p q)
      = Hetero.projScaled (V c main_arg1) (V c main_arg8) (V c main_v42) (((cfg1.win 3).blk t).view.emb (ix2 p q))
  refine (pay1_apply (Gen.iblk1 V c 0 t) (Gen.iblk1 V c 1 t) (Gen.iblk1 V c 2 t) p q).trans ?_
  refine Eq.trans ?_ (congrArg (Hetero.projScaled (V c main_arg1) (V c main_arg8) (V c main_v42)) (place1 t p q)).symm
  refine Eq.trans ?_ (Hetero.projScaled_apply (V c main_arg1) (V c main_arg8) (V c main_v42) (row1 t p) q).symm
  exact congrArg₂ (· * ·)
    (Finset.sum_congr rfl fun k _ => congrArg₂ (· * ·) (read1_0 V c t p k) (read1_1 V c t k q)) (read1_2 V c t p)

/-- An index of the output array is in point t's block iff each coordinate is in the block's range on its axis. -/
theorem mem_block1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v43).slice (win1_3.rect t)).set ↔ _
  rw [View.set_slice_whole, Rect.mem_set_unit]
  exact Iff.rfl

/-- Every entry of the output array is written: row r by point r / 2000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := Gen.N_1
  let t : Fin cfg1.N := ⟨(i 0).val / 2000, by rw [hN]; omega⟩
  have ht : t.val = (i 0).val / 2000 := rfl
  obtain ⟨-, -, -, -, -, -, e0, e1⟩ := blockIndex1 t
  refine ⟨t, Gen.flush1_3 t, ?_⟩
  rw [mem_block1]
  intro a
  match a with
  | ⟨0, _⟩ => show win1_3.index t (0 : Fin 2) * 2000 ≤ (i 0).val ∧ (i 0).val < win1_3.index t (0 : Fin 2) * 2000 + 2000; rw [e0, ht]; omega
  | ⟨1, _⟩ => show win1_3.index t (1 : Fin 2) * 128 ≤ (i 1).val ∧ (i 1).val < win1_3.index t (1 : Fin 2) * 128 + 128; rw [e1]; omega

/-- After region 1 the output array is the scaled projection of the arrays the region found. -/
theorem final1 (c : Dev nD) :
    (Gen.dat1 (F := Ideal) V c).arrAt 3 cfg1.N = Hetero.projScaled (V c main_arg1) (V c main_arg8) (V c main_v42) :=
  (Gen.dat1 (F := Ideal) V c).arrAt_eq_of_cover 3 (Hetero.projScaled (V c main_arg1) (V c main_arg8) (V c main_v42))
    (fun t _ => flushed1_eq V c t) cover1

end Cert.KernelIdeal.RegionValue

end
-- ==== Proof.KWalk3.lean ====
/-
  The tiled program's buffers from the launch to the first region's exit.

  Before the first region the host computes, from the article edge list, the two index vectors (sources and
  destinations, each followed by the self loops), the in-degree count, and the inverse-square-root scale; these are the
  same operations the reference performs, so each is named by the reference's stage. The scale enters the first region
  as a column; the region leaves the row-scaled projection of the article features.
-/
import proofs.«119477_j88364657147989_2_alg».proof.Proof.Gen.KernelIdeal.Frame
import proofs.«119477_j88364657147989_2_alg».proof.Proof.RefRead
import proofs.«119477_j88364657147989_2_alg».proof.Proof.KTerms
import proofs.«119477_j88364657147989_2_alg».proof.Proof.Spec
import proofs.«119477_j88364657147989_2_alg».proof.Proof.RegionProj
import proofs.«119477_j88364657147989_2_alg».proof.Proof.LibRowOps
import Idealize.ShloMosaic.PureOps.Ideal
import Idealize.ShloMosaic.Lib.StableHlo.Run

set_option maxRecDepth 16384

noncomputable section

namespace Cert.KernelIdeal.KRun

open Cert.KernelIdeal Cert.KernelIdeal.Gen Cert.ReferenceIdeal.ReadP Cert.ReferenceIdeal.RefValue
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-- A buffer that no operation of a stretch of host operations writes keeps its contents across the stretch. -/
local macro "unwritten" : tactic => `(tactic| (
  refine StableHlo.after_of_forall_not_mem _ _ (List.forall_iff_forall_mem.mp ?_)
  simp only [hostOps0, hostOps0_1, hostOps0_2, hostOps1, hostOps1_1, hostOps1_2, hostOps2, hostOps3,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A length-n vector reshaped to [n, 1] is that vector as a column. -/
theorem shapeCast_col {n : ℕ} (v : FVec Ideal ⟨1, ![n]⟩ .f32) (h : (⟨1, ![n]⟩ : Shape).ShapeCasts ⟨2, ![n, 1]⟩) :
    shapeCast ⟨2, ![n, 1]⟩ v h = Hetero.colOf v := by
  funext i
  obtain ⟨p, u, rfl⟩ : ∃ (p : Fin n) (u : Fin 1), i = ix2 p u := ⟨i 0, i 1, eq_ix2 i⟩
  exact RowOps.shapeCast_a_a1_apply v h p u

/-! ## Region 0's entry: the arguments as launched -/

theorem w3_arg0 : W3 m ρ c (Proc.devRef .tc main_arg0) = (m ((c : Thread nD τ).loc main_arg0)) :=
  calc W3 m ρ c (Proc.devRef .tc main_arg0) = W2 m ρ c (Proc.devRef .tc main_arg0) := by unwritten
    _ = W1 m ρ c (Proc.devRef .tc main_arg0) := by unwritten
    _ = W0 m ρ c (Proc.devRef .tc main_arg0) := by unwritten
    _ = (m ((c : Thread nD τ).loc main_arg0)) := rfl

theorem w3_arg1 : W3 m ρ c (Proc.devRef .tc main_arg1) = (m ((c : Thread nD τ).loc main_arg1)) :=
  calc W3 m ρ c (Proc.devRef .tc main_arg1) = W2 m ρ c (Proc.devRef .tc main_arg1) := by unwritten
    _ = W1 m ρ c (Proc.devRef .tc main_arg1) := by unwritten
    _ = W0 m ρ c (Proc.devRef .tc main_arg1) := by unwritten
    _ = (m ((c : Thread nD τ).loc main_arg1)) := rfl

theorem w3_arg3 : W3 m ρ c (Proc.devRef .tc main_arg3) = (m ((c : Thread nD τ).loc main_arg3)) :=
  calc W3 m ρ c (Proc.devRef .tc main_arg3) = W2 m ρ c (Proc.devRef .tc main_arg3) := by unwritten
    _ = W1 m ρ c (Proc.devRef .tc main_arg3) := by unwritten
    _ = W0 m ρ c (Proc.devRef .tc main_arg3) := by unwritten
    _ = (m ((c : Thread nD τ).loc main_arg3)) := rfl

theorem w3_arg4 : W3 m ρ c (Proc.devRef .tc main_arg4) = (m ((c : Thread nD τ).loc main_arg4)) :=
  calc W3 m ρ c (Proc.devRef .tc main_arg4) = W2 m ρ c (Proc.devRef .tc main_arg4) := by unwritten
    _ = W1 m ρ c (Proc.devRef .tc main_arg4) := by unwritten
    _ = W0 m ρ c (Proc.devRef .tc main_arg4) := by unwritten
    _ = (m ((c : Thread nD τ).loc main_arg4)) := rfl

theorem w3_arg5 : W3 m ρ c (Proc.devRef .tc main_arg5) = (m ((c : Thread nD τ).loc main_arg5)) :=
  calc W3 m ρ c (Proc.devRef .tc main_arg5) = W2 m ρ c (Proc.devRef .tc main_arg5) := by unwritten
    _ = W1 m ρ c (Proc.devRef .tc main_arg5) := by unwritten
    _ = W0 m ρ c (Proc.devRef .tc main_arg5) := by unwritten
    _ = (m ((c : Thread nD τ).loc main_arg5)) := rfl

theorem w3_arg6 : W3 m ρ c (Proc.devRef .tc main_arg6) = (m ((c : Thread nD τ).loc main_arg6)) :=
  calc W3 m ρ c (Proc.devRef .tc main_arg6) = W2 m ρ c (Proc.devRef .tc main_arg6) := by unwritten
    _ = W1 m ρ c (Proc.devRef .tc main_arg6) := by unwritten
    _ = W0 m ρ c (Proc.devRef .tc main_arg6) := by unwritten
    _ = (m ((c : Thread nD τ).loc main_arg6)) := rfl

theorem w3_arg7 : W3 m ρ c (Proc.devRef .tc main_arg7) = (m ((c : Thread nD τ).loc main_arg7)) :=
  calc W3 m ρ c (Proc.devRef .tc main_arg7) = W2 m ρ c (Proc.devRef .tc main_arg7) := by unwritten
    _ = W1 m ρ c (Proc.devRef .tc main_arg7) := by unwritten
    _ = W0 m ρ c (Proc.devRef .tc main_arg7) := by unwritten
    _ = (m ((c : Thread nD τ).loc main_arg7)) := rfl

theorem w3_arg8 : W3 m ρ c (Proc.devRef .tc main_arg8) = (m ((c : Thread nD τ).loc main_arg8)) :=
  calc W3 m ρ c (Proc.devRef .tc main_arg8) = W2 m ρ c (Proc.devRef .tc main_arg8) := by unwritten
    _ = W1 m ρ c (Proc.devRef .tc main_arg8) := by unwritten
    _ = W0 m ρ c (Proc.devRef .tc main_arg8) := by unwritten
    _ = (m ((c : Thread nD τ).loc main_arg8)) := rfl

theorem w3_arg9 : W3 m ρ c (Proc.devRef .tc main_arg9) = (m ((c : Thread nD τ).loc main_arg9)) :=
  calc W3 m ρ c (Proc.devRef .tc main_arg9) = W2 m ρ c (Proc.devRef .tc main_arg9) := by unwritten
    _ = W1 m ρ c (Proc.devRef .tc main_arg9) := by unwritten
    _ = W0 m ρ c (Proc.devRef .tc main_arg9) := by unwritten
    _ = (m ((c : Thread nD τ).loc main_arg9)) := rfl

theorem w3_arg10 : W3 m ρ c (Proc.devRef .tc main_arg10) = (m ((c : Thread nD τ).loc main_arg10)) :=
  calc W3 m ρ c (Proc.devRef .tc main_arg10) = W2 m ρ c (Proc.devRef .tc main_arg10) := by unwritten
    _ = W1 m ρ c (Proc.devRef .tc main_arg10) := by unwritten
    _ = W0 m ρ c (Proc.devRef .tc main_arg10) := by unwritten
    _ = (m ((c : Thread nD τ).loc main_arg10)) := rfl

theorem w3_arg11 : W3 m ρ c (Proc.devRef .tc main_arg11) = (m ((c : Thread nD τ).loc main_arg11)) :=
  calc W3 m ρ c (Proc.devRef .tc main_arg11) = W2 m ρ c (Proc.devRef .tc main_arg11) := by unwritten
    _ = W1 m ρ c (Proc.devRef .tc main_arg11) := by unwritten
    _ = W0 m ρ c (Proc.devRef .tc main_arg11) := by unwritten
    _ = (m ((c : Thread nD τ).loc main_arg11)) := rfl

theorem w3_arg12 : W3 m ρ c (Proc.devRef .tc main_arg12) = (m ((c : Thread nD τ).loc main_arg12)) :=
  calc W3 m ρ c (Proc.devRef .tc main_arg12) = W2 m ρ c (Proc.devRef .tc main_arg12) := by unwritten
    _ = W1 m ρ c (Proc.devRef .tc main_arg12) := by unwritten
    _ = W0 m ρ c (Proc.devRef .tc main_arg12) := by unwritten
    _ = (m ((c : Thread nD τ).loc main_arg12)) := rfl

/-! ## Region 0's entry: what the host computed from the article edge list -/

set_option maxHeartbeats 4000000 in
/-- The source index vector: the edge list's first row followed by the self loops. -/
theorem w3_v5 : W3 m ρ c (Proc.devRef .tc main_v5) = val_main_v6 (F := Ideal) (m ((c : Thread nD τ).loc main_arg2)) := by
  dsimp only [W3, W2, W1, hostOps0, hostOps0_1, hostOps0_2]
  after_results
  rfl

set_option maxHeartbeats 4000000 in
/-- The destination index vector: the edge list's second row followed by the self loops. -/
theorem w3_v6 : W3 m ρ c (Proc.devRef .tc main_v6) = val_main_v7 (F := Ideal) (m ((c : Thread nD τ).loc main_arg2)) := by
  dsimp only [W3, W2, W1, hostOps0, hostOps0_1, hostOps0_2]
  after_results
  rfl

/-! ### The scale, stretch by stretch

The degree count, its comparison with zero and its inverse square root are computed by the first stretch; the
selection between the inverse square root and zero is an outlined function of three operations; a last operation
reshapes the result to a column. Each stretch is read over ARBITRARY contents of the buffers it reads, and the three
are then composed. -/

set_option maxHeartbeats 4000000 in
/-- Where the in-degree is positive. -/
theorem w1_v12 : W1 m ρ c (Proc.devRef .tc main_v12) = val_main_v13 (F := Ideal) (m ((c : Thread nD τ).loc main_arg2)) := by
  dsimp only [W1, hostOps0]
  after_results
  rfl

set_option maxHeartbeats 4000000 in
/-- The inverse square root of the in-degree. -/
theorem w1_v13 : W1 m ρ c (Proc.devRef .tc main_v13) = val_main_v14 (F := Ideal) (m ((c : Thread nD τ).loc main_arg2)) := by
  dsimp only [W1, hostOps0]
  after_results
  rfl

set_option maxHeartbeats 4000000 in
/-- The zero the selection falls back to. -/
theorem w1_cst2 : W1 m ρ c (Proc.devRef .tc main_cst_2) = val_main_cst_2 (F := Ideal) := by
  dsimp only [W1, hostOps0]
  after_results
  rfl

/-- The outlined selection, over any contents of the three buffers it reads. -/
theorem select_stretch (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  dsimp only [hostOps0_1]
  after_results
  rfl

/-- The reshape to a column, over any contents of the buffer it reads. -/
theorem column_stretch (V : Valuation τ sig (Elt Ideal)) :
    StableHlo.after hostOps0_2 V (Proc.devRef .tc main_v15)
      = shapeCast S100000x1 (V (Proc.devRef .tc main_v14)) shapeCasts_S100000_S100000x1 := by
  dsimp only [hostOps0_2]
  after_results
  rfl

/-- The scale: the inverse square root of the in-degree where that is positive, zero elsewhere. -/
theorem w2_v14 : W2 m ρ c (Proc.devRef .tc main_v14) = val_main_v15 (F := Ideal) (m ((c : Thread nD τ).loc main_arg2)) := by
  refine (select_stretch (W1 m ρ c)).trans ?_
  rw [w1_v12, w1_v13, w1_cst2]
  rfl

theorem w3_v14 : W3 m ρ c (Proc.devRef .tc main_v14) = val_main_v15 (F := Ideal) (m ((c : Thread nD τ).loc main_arg2)) :=
  (show W3 m ρ c (Proc.devRef .tc main_v14) = W2 m ρ c (Proc.devRef .tc main_v14) by unwritten).trans (w2_v14 m ρ c)

/-- The scale as the column the first region reads. -/
theorem w3_v15 : W3 m ρ c (Proc.devRef .tc main_v15) = Hetero.colOf (val_main_v15 (F := Ideal) (m ((c : Thread nD τ).loc main_arg2))) := by
  refine (column_stretch (W2 m ρ c)).trans ?_
  rw [w2_v14]
  exact shapeCast_col _ _

/-! ## Region 0's exit -/

/-- The first region leaves the row-scaled projection of the article features. -/
theorem w4_v16 : W4 m ρ c (Proc.devRef .tc main_v16)
    = Hetero.projScaled (m ((c : Thread nD τ).loc main_arg0)) (m ((c : Thread nD τ).loc main_arg6)) (Hetero.colOf (val_main_v15 (F := Ideal) (m ((c : Thread nD τ).loc main_arg2)))) := by
  refine (W4_arr m ρ c 3).trans ((Cert.KernelIdeal.RegionValue.final0 (V3 m ρ) c).trans ?_)
  rw [show V3 m ρ c main_arg0 = _ from w3_arg0 m ρ c, show V3 m ρ c main_arg6 = _ from w3_arg6 m ρ c,
    show V3 m ρ c main_v15 = _ from w3_v15 m ρ c]

theorem w4_v5 : W4 m ρ c (Proc.devRef .tc main_v5) = val_main_v6 (F := Ideal) (m ((c : Thread nD τ).loc main_arg2)) :=
  (W4_of_ne m ρ c main_v5 (by decide)).trans (w3_v5 m ρ c)
theorem w4_v6 : W4 m ρ c (Proc.devRef .tc main_v6) = val_main_v7 (F := Ideal) (m ((c : Thread nD τ).loc main_arg2)) :=
  (W4_of_ne m ρ c main_v6 (by decide)).trans (w3_v6 m ρ c)
theorem w4_v14 : W4 m ρ c (Proc.devRef .tc main_v14) = val_main_v15 (F := Ideal) (m ((c : Thread nD τ).loc main_arg2)) :=
  (W4_of_ne m ρ c main_v14 (by decide)).trans (w3_v14 m ρ c)
/-- The article features are the first region's input: it leaves them as it found them. -/
theorem w4_arg0 : W4 m ρ c (Proc.devRef .tc main_arg0) = (m ((c : Thread nD τ).loc main_arg0)) :=
  (W4_arr m ρ c 0).trans (((dat0 (V3 m ρ) c).arrAt_in 0 rfl _).trans ((A_eq0 (V3 m ρ) c 0).trans (w3_arg0 m ρ c)))
theorem w4_arg1 : W4 m ρ c (Proc.devRef .tc main_arg1) = (m ((c : Thread nD τ).loc main_arg1)) :=
  (W4_of_ne m ρ c main_arg1 (by decide)).trans (w3_arg1 m ρ c)
theorem w4_arg3 : W4 m ρ c (Proc.devRef .tc main_arg3) = (m ((c : Thread nD τ).loc main_arg3)) :=
  (W4_of_ne m ρ c main_arg3 (by decide)).trans (w3_arg3 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)
theorem w4_arg12 : W4 m ρ c (Proc.devRef .tc main_arg12) = (m ((c : Thread nD τ).loc main_arg12)) :=
  (W4_of_ne m ρ c main_arg12 (by decide)).trans (w3_arg12 m ρ c)

end Cert.KernelIdeal.KRun

end
-- ==== Proof.KWalk7.lean ====
/-
  The buffers between the first projection region and the end of the second.

  After the first projection region the host computes, for the second node type, the edge list with its self
  loops (two index columns), the degree of every node as a scatter-add of ones, its inverse square root where the
  degree is positive and zero elsewhere, and that vector as a column; and, for the first node type, the raw
  segment sum: the projected rows gathered by source and scatter-added by destination. None of these operations
  touches an argument array or the first type's degree vector, so those keep their contents. The second
  projection region then writes its output — the second type's features times its weight, each row scaled by the
  column just computed — and changes no other buffer.

  Each stretch of host operations is read once over an arbitrary buffer valuation (where its term is small), and
  then at the valuation the previous stretch left. The values are named by the stages of the reference's reading.
-/
import proofs.«119477_j88364657147989_2_alg».proof.Proof.Gen.KernelIdeal.Frame
import proofs.«119477_j88364657147989_2_alg».proof.Proof.RefRead
import proofs.«119477_j88364657147989_2_alg».proof.Proof.KTerms
import proofs.«119477_j88364657147989_2_alg».proof.Proof.Spec
import proofs.«119477_j88364657147989_2_alg».proof.Proof.RegionProj
import proofs.«119477_j88364657147989_2_alg».proof.Proof.LibRowOps
import Idealize.ShloMosaic.PureOps.Ideal
import Idealize.ShloMosaic.Lib.StableHlo.Run

set_option maxRecDepth 16384

noncomputable section

namespace Cert.KernelIdeal.KRun

open Cert.KernelIdeal Cert.KernelIdeal.Gen Cert.ReferenceIdeal.ReadP Cert.ReferenceIdeal.RefValue
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-- No operation of the stretch writes the buffer, so the stretch leaves it as it was. -/
local macro "untouched" b:term "through" ops:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The two short stretches, over an arbitrary valuation -/

/-- The outlined selection: the inverse square root where the degree is positive, the broadcast zero elsewhere. -/
theorem k7_where (V : Valuation τ sig (Elt Ideal)) :
    StableHlo.after hostOps1_1 V (Proc.devRef .tc main_v41)
      = select (V (Proc.devRef .tc main_v39)) (V (Proc.devRef .tc main_v40))
          (broadcastInDim S50000 ![] bcast_S_S50000 (id (V (Proc.devRef .tc main_cst_8)))) := by
  dsimp only [hostOps1_1]
  after_results
  rfl

/-- The reshape of the length-50000 vector to a column. -/
theorem k7_reshape (V : Valuation τ sig (Elt Ideal)) :
    StableHlo.after hostOps1_2 V (Proc.devRef .tc main_v42)
      = shapeCast S50000x1 (V (Proc.devRef .tc main_v41)) shapeCasts_S50000_S50000x1 := by
  dsimp only [hostOps1_2]
  after_results
  rfl

/-- A length-n vector reshaped to [n, 1] is the vector as a column. -/
theorem k7_col {n : ℕ} (v : FVec Ideal ⟨1, ![n]⟩ .f32) (h : (⟨1, ![n]⟩ : Shape).ShapeCasts ⟨2, ![n, 1]⟩) :
    shapeCast ⟨2, ![n, 1]⟩ v h = Hetero.colOf v := by
  funext j
  obtain ⟨p, u, rfl⟩ : ∃ (p : Fin n) (u : Fin 1), j = ix2 p u := ⟨j 0, j 1, eq_ix2 j⟩
  exact RowOps.shapeCast_a_a1_apply v h p u

/-! ## After the long stretch: what it computes -/

set_option maxHeartbeats 4000000 in
theorem w5_v26 (h5 : W4 m ρ c (Proc.devRef .tc main_v5) = val_main_v6 (F := Ideal) (m ((c : Thread nD τ).loc main_arg2)))
    (h6 : W4 m ρ c (Proc.devRef .tc main_v6) = val_main_v7 (F := Ideal) (m ((c : Thread nD τ).loc main_arg2)))
    (h16 : W4 m ρ c (Proc.devRef .tc main_v16) = Hetero.projScaled (m ((c : Thread nD τ).loc main_arg0)) (m ((c : Thread nD τ).loc main_arg6)) (Hetero.colOf (val_main_v15 (F := Ideal) (m ((c : Thread nD τ).loc main_arg2))))) :
    W5 m ρ c (Proc.devRef .tc main_v26) = segA (m ((c : Thread nD τ).loc main_arg0)) (m ((c : Thread nD τ).loc main_arg2)) (m ((c : Thread nD τ).loc main_arg6)) := by
  dsimp only [W5, hostOps1]
  after_results
  rw [h5, h6, h16]
  rfl

set_option maxHeartbeats 4000000 in
theorem w5_v32 (h3 : W4 m ρ c (Proc.devRef .tc main_arg3) = (m ((c : Thread nD τ).loc main_arg3))) :
    W5 m ρ c (Proc.devRef .tc main_v32) = val_main_v53 (F := Ideal) (m ((c : Thread nD τ).loc main_arg3)) := by
  dsimp only [W5, hostOps1]
  after_results
  rw [h3]
  rfl

set_option maxHeartbeats 4000000 in
theorem w5_v33 (h3 : W4 m ρ c (Proc.devRef .tc main_arg3) = (m ((c : Thread nD τ).loc main_arg3))) :
    W5 m ρ c (Proc.devRef .tc main_v33) = val_main_v54 (F := Ideal) (m ((c : Thread nD τ).loc main_arg3)) := by
  dsimp only [W5, hostOps1]
  after_results
  rw [h3]
  rfl

set_option maxHeartbeats 4000000 in
theorem w5_v39 (h3 : W4 m ρ c (Proc.devRef .tc main_arg3) = (m ((c : Thread nD τ).loc main_arg3))) :
    W5 m ρ c (Proc.devRef .tc main_v39) = val_main_v60 (F := Ideal) (m ((c : Thread nD τ).loc main_arg3)) := by
  dsimp only [W5, hostOps1]
  after_results
  rw [h3]
  rfl

set_option maxHeartbeats 4000000 in
theorem w5_v40 (h3 : W4 m ρ c (Proc.devRef .tc main_arg3) = (m ((c : Thread nD τ).loc main_arg3))) :
    W5 m ρ c (Proc.devRef .tc main_v40) = val_main_v61 (F := Ideal) (m ((c : Thread nD τ).loc main_arg3)) := by
  dsimp only [W5, hostOps1]
  after_results
  rw [h3]
  rfl

set_option maxHeartbeats 4000000 in
theorem w5_cst8  :
    W5 m ρ c (Proc.devRef .tc main_cst_8) = val_main_cst_12 (F := Ideal) := by
  dsimp only [W5, hostOps1]
  after_results
  rfl

/-! ## At the second projection region's entry -/

/-- The second type's normalisation vector, after the outlined selection. -/
theorem w6_v41 (h3 : W4 m ρ c (Proc.devRef .tc main_arg3) = (m ((c : Thread nD τ).loc main_arg3))) :
    W6 m ρ c (Proc.devRef .tc main_v41) = val_main_v62 (F := Ideal) (m ((c : Thread nD τ).loc main_arg3)) :=
  (k7_where (W5 m ρ c)).trans (by
    rw [w5_v39 m ρ c h3, w5_v40 m ρ c h3, w5_cst8 m ρ c]
    rfl)

theorem w7_v41 (h3 : W4 m ρ c (Proc.devRef .tc main_arg3) = (m ((c : Thread nD τ).loc main_arg3))) :
    W7 m ρ c (Proc.devRef .tc main_v41) = val_main_v62 (F := Ideal) (m ((c : Thread nD τ).loc main_arg3)) :=
  calc W7 m ρ c (Proc.devRef .tc main_v41)
    _ = W6 m ρ c (Proc.devRef .tc main_v41) := untouched main_v41 through hostOps1_2
    _ = val_main_v62 (F := Ideal) (m ((c : Thread nD τ).loc main_arg3)) := w6_v41 m ρ c h3

/-- The same vector as a column: the row weights of the second projection. -/
theorem w7_v42 (h3 : W4 m ρ c (Proc.devRef .tc main_arg3) = (m ((c : Thread nD τ).loc main_arg3))) :
    W7 m ρ c (Proc.devRef .tc main_v42) = Hetero.colOf (val_main_v62 (F := Ideal) (m ((c : Thread nD τ).loc main_arg3))) :=
  (k7_reshape (W6 m ρ c)).trans (by
    rw [w6_v41 m ρ c h3]
    exact k7_col _ _)

theorem w7_v26 (h5 : W4 m ρ c (Proc.devRef .tc main_v5) = val_main_v6 (F := Ideal) (m ((c : Thread nD τ).loc main_arg2)))
    (h6 : W4 m ρ c (Proc.devRef .tc main_v6) = val_main_v7 (F := Ideal) (m ((c : Thread nD τ).loc main_arg2)))
    (h16 : W4 m ρ c (Proc.devRef .tc main_v16) = Hetero.projScaled (m ((c : Thread nD τ).loc main_arg0)) (m ((c : Thread nD τ).loc main_arg6)) (Hetero.colOf (val_main_v15 (F := Ideal) (m ((c : Thread nD τ).loc main_arg2))))) : W7 m ρ c (Proc.devRef .tc main_v26) = segA (m ((c : Thread nD τ).loc main_arg0)) (m ((c : Thread nD τ).loc main_arg2)) (m ((c : Thread nD τ).loc main_arg6)) :=
  calc W7 m ρ c (Proc.devRef .tc main_v26)
    _ = W6 m ρ c (Proc.devRef .tc main_v26) := untouched main_v26 through hostOps1_2
    _ = W5 m ρ c (Proc.devRef .tc main_v26) := untouched main_v26 through hostOps1_1
    _ = segA (m ((c : Thread nD τ).loc main_arg0)) (m ((c : Thread nD τ).loc main_arg2)) (m ((c : Thread nD τ).loc main_arg6)) := w5_v26 m ρ c h5 h6 h16

theorem w7_v32 (h3 : W4 m ρ c (Proc.devRef .tc main_arg3) = (m ((c : Thread nD τ).loc main_arg3))) : W7 m ρ c (Proc.devRef .tc main_v32) = val_main_v53 (F := Ideal) (m ((c : Thread nD τ).loc main_arg3)) :=
  calc W7 m ρ c (Proc.devRef .tc main_v32)
    _ = W6 m ρ c (Proc.devRef .tc main_v32) := untouched main_v32 through hostOps1_2
    _ = W5 m ρ c (Proc.devRef .tc main_v32) := untouched main_v32 through hostOps1_1
    _ = val_main_v53 (F := Ideal) (m ((c : Thread nD τ).loc main_arg3)) := w5_v32 m ρ c h3

theorem w7_v33 (h3 : W4 m ρ c (Proc.devRef .tc main_arg3) = (m ((c : Thread nD τ).loc main_arg3))) : W7 m ρ c (Proc.devRef .tc main_v33) = val_main_v54 (F := Ideal) (m ((c : Thread nD τ).loc main_arg3)) :=
  calc W7 m ρ c (Proc.devRef .tc main_v33)
    _ = W6 m ρ c (Proc.devRef .tc main_v33) := untouched main_v33 through hostOps1_2
    _ = W5 m ρ c (Proc.devRef .tc main_v33) := untouched main_v33 through hostOps1_1
    _ = val_main_v54 (F := Ideal) (m ((c : Thread nD τ).loc main_arg3)) := w5_v33 m ρ c h3

theorem w7_v14 (h : W4 m ρ c (Proc.devRef .tc main_v14) = val_main_v15 (F := Ideal) (m ((c : Thread nD τ).loc main_arg2))) : W7 m ρ c (Proc.devRef .tc main_v14) = val_main_v15 (F := Ideal) (m ((c : Thread nD τ).loc main_arg2)) :=
  calc W7 m ρ c (Proc.devRef .tc main_v14)
    _ = W6 m ρ c (Proc.devRef .tc main_v14) := untouched main_v14 through hostOps1_2
    _ = W5 m ρ c (Proc.devRef .tc main_v14) := untouched main_v14 through hostOps1_1
    _ = W4 m ρ c (Proc.devRef .tc main_v14) := untouched main_v14 through hostOps1
    _ = val_main_v15 (F := Ideal) (m ((c : Thread nD τ).loc main_arg2)) := h

theorem w7_arg0 (h : W4 m ρ c (Proc.devRef .tc main_arg0) = (m ((c : Thread nD τ).loc main_arg0))) : W7 m ρ c (Proc.devRef .tc main_arg0) = (m ((c : Thread nD τ).loc main_arg0)) :=
  calc W7 m ρ c (Proc.devRef .tc main_arg0)
    _ = W6 m ρ c (Proc.devRef .tc main_arg0) := untouched main_arg0 through hostOps1_2
    _ = W5 m ρ c (Proc.devRef .tc main_arg0) := untouched main_arg0 through hostOps1_1
    _ = W4 m ρ c (Proc.devRef .tc main_arg0) := untouched main_arg0 through hostOps1
    _ = (m ((c : Thread nD τ).loc main_arg0)) := h

theorem w7_arg1 (h : W4 m ρ c (Proc.devRef .tc main_arg1) = (m ((c : Thread nD τ).loc main_arg1))) : W7 m ρ c (Proc.devRef .tc main_arg1) = (m ((c : Thread nD τ).loc main_arg1)) :=
  calc W7 m ρ c (Proc.devRef .tc main_arg1)
    _ = W6 m ρ c (Proc.devRef .tc main_arg1) := untouched main_arg1 through hostOps1_2
    _ = W5 m ρ c (Proc.devRef .tc main_arg1) := untouched main_arg1 through hostOps1_1
    _ = W4 m ρ c (Proc.devRef .tc main_arg1) := untouched main_arg1 through hostOps1
    _ = (m ((c : Thread nD τ).loc main_arg1)) := h

theorem w7_arg4 (h : W4 m ρ c (Proc.devRef .tc main_arg4) = (m ((c : Thread nD τ).loc main_arg4))) : W7 m ρ c (Proc.devRef .tc main_arg4) = (m ((c : Thread nD τ).loc main_arg4)) :=
  calc W7 m ρ c (Proc.devRef .tc main_arg4)
    _ = W6 m ρ c (Proc.devRef .tc main_arg4) := untouched main_arg4 through hostOps1_2
    _ = W5 m ρ c (Proc.devRef .tc main_arg4) := untouched main_arg4 through hostOps1_1
    _ = W4 m ρ c (Proc.devRef .tc main_arg4) := untouched main_arg4 through hostOps1
    _ = (m ((c : Thread nD τ).loc main_arg4)) := h

theorem w7_arg5 (h : W4 m ρ c (Proc.devRef .tc main_arg5) = (m ((c : Thread nD τ).loc main_arg5))) : W7 m ρ c (Proc.devRef .tc main_arg5) = (m ((c : Thread nD τ).loc main_arg5)) :=
  calc W7 m ρ c (Proc.devRef .tc main_arg5)
    _ = W6 m ρ c (Proc.devRef .tc main_arg5) := untouched main_arg5 through hostOps1_2
    _ = W5 m ρ c (Proc.devRef .tc main_arg5) := untouched main_arg5 through hostOps1_1
    _ = W4 m ρ c (Proc.devRef .tc main_arg5) := untouched main_arg5 through hostOps1
    _ = (m ((c : Thread nD τ).loc main_arg5)) := h

theorem w7_arg7 (h : W4 m ρ c (Proc.devRef .tc main_arg7) = (m ((c : Thread nD τ).loc main_arg7))) : W7 m ρ c (Proc.devRef .tc main_arg7) = (m ((c : Thread nD τ).loc main_arg7)) :=
  calc W7 m ρ c (Proc.devRef .tc main_arg7)
    _ = W6 m ρ c (Proc.devRef .tc main_arg7) := untouched main_arg7 through hostOps1_2
    _ = W5 m ρ c (Proc.devRef .tc main_arg7) := untouched main_arg7 through hostOps1_1
    _ = W4 m ρ c (Proc.devRef .tc main_arg7) := untouched main_arg7 through hostOps1
    _ = (m ((c : Thread nD τ).loc main_arg7)) := h

theorem w7_arg8 (h : W4 m ρ c (Proc.devRef .tc main_arg8) = (m ((c : Thread nD τ).loc main_arg8))) : W7 m ρ c (Proc.devRef .tc main_arg8) = (m ((c : Thread nD τ).loc main_arg8)) :=
  calc W7 m ρ c (Proc.devRef .tc main_arg8)
    _ = W6 m ρ c (Proc.devRef .tc main_arg8) := untouched main_arg8 through hostOps1_2
    _ = W5 m ρ c (Proc.devRef .tc main_arg8) := untouched main_arg8 through hostOps1_1
    _ = W4 m ρ c (Proc.devRef .tc main_arg8) := untouched main_arg8 through hostOps1
    _ = (m ((c : Thread nD τ).loc main_arg8)) := h

theorem w7_arg9 (h : W4 m ρ c (Proc.devRef .tc main_arg9) = (m ((c : Thread nD τ).loc main_arg9))) : W7 m ρ c (Proc.devRef .tc main_arg9) = (m ((c : Thread nD τ).loc main_arg9)) :=
  calc W7 m ρ c (Proc.devRef .tc main_arg9)
    _ = W6 m ρ c (Proc.devRef .tc main_arg9) := untouched main_arg9 through hostOps1_2
    _ = W5 m ρ c (Proc.devRef .tc main_arg9) := untouched main_arg9 through hostOps1_1
    _ = W4 m ρ c (Proc.devRef .tc main_arg9) := untouched main_arg9 through hostOps1
    _ = (m ((c : Thread nD τ).loc main_arg9)) := h

theorem w7_arg10 (h : W4 m ρ c (Proc.devRef .tc main_arg10) = (m ((c : Thread nD τ).loc main_arg10))) : W7 m ρ c (Proc.devRef .tc main_arg10) = (m ((c : Thread nD τ).loc main_arg10)) :=
  calc W7 m ρ c (Proc.devRef .tc main_arg10)
    _ = W6 m ρ c (Proc.devRef .tc main_arg10) := untouched main_arg10 through hostOps1_2
    _ = W5 m ρ c (Proc.devRef .tc main_arg10) := untouched main_arg10 through hostOps1_1
    _ = W4 m ρ c (Proc.devRef .tc main_arg10) := untouched main_arg10 through hostOps1
    _ = (m ((c : Thread nD τ).loc main_arg10)) := h

theorem w7_arg11 (h : W4 m ρ c (Proc.devRef .tc main_arg11) = (m ((c : Thread nD τ).loc main_arg11))) : W7 m ρ c (Proc.devRef .tc main_arg11) = (m ((c : Thread nD τ).loc main_arg11)) :=
  calc W7 m ρ c (Proc.devRef .tc main_arg11)
    _ = W6 m ρ c (Proc.devRef .tc main_arg11) := untouched main_arg11 through hostOps1_2
    _ = W5 m ρ c (Proc.devRef .tc main_arg11) := untouched main_arg11 through hostOps1_1
    _ = W4 m ρ c (Proc.devRef .tc main_arg11) := untouched main_arg11 through hostOps1
    _ = (m ((c : Thread nD τ).loc main_arg11)) := h

theorem w7_arg12 (h : W4 m ρ c (Proc.devRef .tc main_arg12) = (m ((c : Thread nD τ).loc main_arg12))) : W7 m ρ c (Proc.devRef .tc main_arg12) = (m ((c : Thread nD τ).loc main_arg12)) :=
  calc W7 m ρ c (Proc.devRef .tc main_arg12)
    _ = W6 m ρ c (Proc.devRef .tc main_arg12) := untouched main_arg12 through hostOps1_2
    _ = W5 m ρ c (Proc.devRef .tc main_arg12) := untouched main_arg12 through hostOps1_1
    _ = W4 m ρ c (Proc.devRef .tc main_arg12) := untouched main_arg12 through hostOps1
    _ = (m ((c : Thread nD τ).loc main_arg12)) := h

/-! ## At the second projection region's exit -/

/-- The region's output: the second type's features times its weight, each row scaled by its row weight. -/
theorem w8_v43 (h1 : W4 m ρ c (Proc.devRef .tc main_arg1) = (m ((c : Thread nD τ).loc main_arg1))) (h8 : W4 m ρ c (Proc.devRef .tc main_arg8) = (m ((c : Thread nD τ).loc main_arg8))) (h3 : W4 m ρ c (Proc.devRef .tc main_arg3) = (m ((c : Thread nD τ).loc main_arg3))) :
    W8 m ρ c (Proc.devRef .tc main_v43) = Hetero.projScaled (m ((c : Thread nD τ).loc main_arg1)) (m ((c : Thread nD τ).loc main_arg8)) (Hetero.colOf (val_main_v62 (F := Ideal) (m ((c : Thread nD τ).loc main_arg3)))) := by
  have e := (W8_arr m ρ c 3).trans (RegionValue.final1 (V7 m ρ) c)
  rw [show V7 m ρ c main_arg1 = (m ((c : Thread nD τ).loc main_arg1)) from w7_arg1 m ρ c h1,
    show V7 m ρ c main_arg8 = (m ((c : Thread nD τ).loc main_arg8)) from w7_arg8 m ρ c h8,
    show V7 m ρ c main_v42 = Hetero.colOf (val_main_v62 (F := Ideal) (m ((c : Thread nD τ).loc main_arg3))) from w7_v42 m ρ c h3] at e
  exact e

/-- The region's first input array is read through its window and left as it was. -/
theorem w8_arg1 (h : W4 m ρ c (Proc.devRef .tc main_arg1) = (m ((c : Thread nD τ).loc main_arg1))) : W8 m ρ c (Proc.devRef .tc main_arg1) = (m ((c : Thread nD τ).loc main_arg1)) :=
  ((W8_arr m ρ c 0).trans (((dat1 (V7 m ρ) c).arrAt_in 0 rfl _).trans (A_eq1 (V7 m ρ) c 0))).trans (w7_arg1 m ρ c h)

theorem w8_v26 (h5 : W4 m ρ c (Proc.devRef .tc main_v5) = val_main_v6 (F := Ideal) (m ((c : Thread nD τ).loc main_arg2)))
    (h6 : W4 m ρ c (Proc.devRef .tc main_v6) = val_main_v7 (F := Ideal) (m ((c : Thread nD τ).loc main_arg2)))
    (h16 : W4 m ρ c (Proc.devRef .tc main_v16) = Hetero.projScaled (m ((c : Thread nD τ).loc main_arg0)) (m ((c : Thread nD τ).loc main_arg6)) (Hetero.colOf (val_main_v15 (F := Ideal) (m ((c : Thread nD τ).loc main_arg2))))) : W8 m ρ c (Proc.devRef .tc main_v26) = segA (m ((c : Thread nD τ).loc main_arg0)) (m ((c : Thread nD τ).loc main_arg2)) (m ((c : Thread nD τ).loc main_arg6)) :=
  (W8_of_ne m ρ c main_v26 (by decide)).trans (w7_v26 m ρ c h5 h6 h16)

theorem w8_v14 (h : W4 m ρ c (Proc.devRef .tc main_v14) = val_main_v15 (F := Ideal) (m ((c : Thread nD τ).loc main_arg2))) : W8 m ρ c (Proc.devRef .tc main_v14) = val_main_v15 (F := Ideal) (m ((c : Thread nD τ).loc main_arg2)) :=
  (W8_of_ne m ρ c main_v14 (by decide)).trans (w7_v14 m ρ c h)

theorem w8_v32 (h3 : W4 m ρ c (Proc.devRef .tc main_arg3) = (m ((c : Thread nD τ).loc main_arg3))) : W8 m ρ c (Proc.devRef .tc main_v32) = val_main_v53 (F := Ideal) (m ((c : Thread nD τ).loc main_arg3)) :=
  (W8_of_ne m ρ c main_v32 (by decide)).trans (w7_v32 m ρ c h3)

theorem w8_v33 (h3 : W4 m ρ c (Proc.devRef .tc main_arg3) = (m ((c : Thread nD τ).loc main_arg3))) : W8 m ρ c (Proc.devRef .tc main_v33) = val_main_v54 (F := Ideal) (m ((c : Thread nD τ).loc main_arg3)) :=
  (W8_of_ne m ρ c main_v33 (by decide)).trans (w7_v33 m ρ c h3)

theorem w8_v41 (h3 : W4 m ρ c (Proc.devRef .tc main_arg3) = (m ((c : Thread nD τ).loc main_arg3))) : W8 m ρ c (Proc.devRef .tc main_v41) = val_main_v62 (F := Ideal) (m ((c : Thread nD τ).loc main_arg3)) :=
  (W8_of_ne m ρ c main_v41 (by decide)).trans (w7_v41 m ρ c h3)

theorem w8_arg0 (h : W4 m ρ c (Proc.devRef .tc main_arg0) = (m ((c : Thread nD τ).loc main_arg0))) : W8 m ρ c (Proc.devRef .tc main_arg0) = (m ((c : Thread nD τ).loc main_arg0)) :=
  (W8_of_ne m ρ c main_arg0 (by decide)).trans (w7_arg0 m ρ c h)

theorem w8_arg4 (h : W4 m ρ c (Proc.devRef .tc main_arg4) = (m ((c : Thread nD τ).loc main_arg4))) : W8 m ρ c (Proc.devRef .tc main_arg4) = (m ((c : Thread nD τ).loc main_arg4)) :=
  (W8_of_ne m ρ c main_arg4 (by decide)).trans (w7_arg4 m ρ c h)

theorem w8_arg5 (h : W4 m ρ c (Proc.devRef .tc main_arg5) = (m ((c : Thread nD τ).loc main_arg5))) : W8 m ρ c (Proc.devRef .tc main_arg5) = (m ((c : Thread nD τ).loc main_arg5)) :=
  (W8_of_ne m ρ c main_arg5 (by decide)).trans (w7_arg5 m ρ c h)

theorem w8_arg7 (h : W4 m ρ c (Proc.devRef .tc main_arg7) = (m ((c : Thread nD τ).loc main_arg7))) : W8 m ρ c (Proc.devRef .tc main_arg7) = (m ((c : Thread nD τ).loc main_arg7)) :=
  (W8_of_ne m ρ c main_arg7 (by decide)).trans (w7_arg7 m ρ c h)

theorem w8_arg9 (h : W4 m ρ c (Proc.devRef .tc main_arg9) = (m ((c : Thread nD τ).loc main_arg9))) : W8 m ρ c (Proc.devRef .tc main_arg9) = (m ((c : Thread nD τ).loc main_arg9)) :=
  (W8_of_ne m ρ c main_arg9 (by decide)).trans (w7_arg9 m ρ c h)

theorem w8_arg10 (h : W4 m ρ c (Proc.devRef .tc main_arg10) = (m ((c : Thread nD τ).loc main_arg10))) : W8 m ρ c (Proc.devRef .tc main_arg10) = (m ((c : Thread nD τ).loc main_arg10)) :=
  (W8_of_ne m ρ c main_arg10 (by decide)).trans (w7_arg10 m ρ c h)

theorem w8_arg11 (h : W4 m ρ c (Proc.devRef .tc main_arg11) = (m ((c : Thread nD τ).loc main_arg11))) : W8 m ρ c (Proc.devRef .tc main_arg11) = (m ((c : Thread nD τ).loc main_arg11)) :=
  (W8_of_ne m ρ c main_arg11 (by decide)).trans (w7_arg11 m ρ c h)

theorem w8_arg12 (h : W4 m ρ c (Proc.devRef .tc main_arg12) = (m ((c : Thread nD τ).loc main_arg12))) : W8 m ρ c (Proc.devRef .tc main_arg12) = (m ((c : Thread nD τ).loc main_arg12)) :=
  (W8_of_ne m ρ c main_arg12 (by decide)).trans (w7_arg12 m ρ c h)

end Cert.KernelIdeal.KRun

end
-- ==== Proof.RegionCombine.lean ====
/-
  What the two combine kernels leave in their output arrays, as whole-array functions of the arrays they find.

  Each kernel runs over row blocks of 2000 nodes. At every block the body computes, entry by entry, a function of
  row p of its row-blocked operands (the aggregated features, the per-node weight column, and for the article
  combine the neighbour mean and the node's own features) and of whole small operands (bias rows, weight matrices).
  Because block t holds rows 2000 t … 2000 t + 1999 of every row-blocked array, entry (p, q) of the block written at
  point t is the whole-array formula at row 2000 t + p; the blocks tile all rows, so the array after the region is
  that formula everywhere.
-/
import proofs.«119477_j88364657147989_2_alg».proof.Proof.Gen.KernelIdeal.Frame
import proofs.«119477_j88364657147989_2_alg».proof.Proof.Spec
import proofs.«119477_j88364657147989_2_alg».proof.Proof.LibDotRecord
import proofs.«119477_j88364657147989_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- Both offsets of a whole-buffer access are zero. -/
theorem zero_offsets : (![0, 0] : Fin 2 → Nat) = fun _ => 0 := funext fun a => by fin_cases a <;> rfl

/-! ## The software combine: max(seg · d + b, 0) on 25 row blocks of 2000 -/

set_option maxHeartbeats 400000 in
/-- One output block of the software combine, entry (p, q): the aggregate's entry scaled by row p's weight, plus
    the bias of column q, clipped at zero. -/
theorem softBlock_apply (x0 : Vec Ideal S2000x128 .f32) (x1 : Vec Ideal S2000x1 .f32) (x2 : Vec Ideal S1x128 .f32)
    (p : Fin 2000) (q : Fin 128) :
    Gen.out3_3 x0 x1 x2 (ix2 p q)
      = max (x0 (ix2 p q) * x1 (ix2 p (0 : Fin 1)) + x2 (ix2 (0 : Fin 1) q)) Hetero.zero32 := by
  unfold Gen.out3_3
  rw [View.canon_unit_zero zero_offsets]
  simp only [View.ld_unit_zero (S := S2000x128) zero_offsets, View.ld_unit_zero (S := S2000x1) zero_offsets,
    View.ld_unit_zero (S := S1x128) zero_offsets]
  unfold Gen.k3_pay1
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · exact congrFun (shapeCast_self x0 _) _
    · refine (RowOps.broadcastTo_a1_ab_apply _ _ p q).trans ?_
      refine (congrFun (shapeCast_self _ _) _).trans ?_
      exact congrFun (shapeCast_self x1 _) _
  · refine (DotRecord.broadcastTo_1b_ab_apply _ _ p q).trans ?_
    exact congrFun (shapeCast_self x2 _) _

/-- The block indices over the 25 points: the aggregate, the weight column and the output move down the rows with
    the point; the bias row stays. -/
theorem softIdx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

set_option maxHeartbeats 400000 in
/-- The aggregate's block at point t, entry (p, q), is the array's entry (2000 t + p, q). -/
theorem softSeg_read (c : Dev nD) (t : Fin cfg3.N) (p : Fin 2000) (q : Fin 128) (r : Fin 50000)
    (hr : r.val = t.val * 2000 + p.val) :
    Gen.iblk3 V c 0 t (ix2 p q) = V c main_v53 (ix2 r q) := by
  obtain ⟨e0, e1, -, -, -, -, -, -⟩ := softIdx t
  show V c main_v53 (((cfg3.win 0).blk t).view.emb (ix2 p q)) = V c main_v53 (ix2 r q)
  refine congrArg (V c main_v53) ?_
  funext a; apply Fin.ext
  match a with
  | ⟨0, _⟩ => show win3_0.index t (0 : Fin 2) * 2000 + 1 * p.val = r.val; omega
  | ⟨1, _⟩ => show win3_0.index t (1 : Fin 2) * 128 + 1 * q.val = q.val; omega

set_option maxHeartbeats 400000 in
/-- The weight column's block at point t, entry (p, 0), is the column's entry (2000 t + p, 0). -/
theorem softDinv_read (c : Dev nD) (t : Fin cfg3.N) (p : Fin 2000) (r : Fin 50000)
    (hr : r.val = t.val * 2000 + p.val) :
    Gen.iblk3 V c 1 t (ix2 p (0 : Fin 1)) = V c main_v77 (ix2 r (0 : Fin 1)) := by
  obtain ⟨-, -, e0, e1, -, -, -, -⟩ := softIdx t
  show V c main_v77 (((cfg3.win 1).blk t).view.emb (ix2 p (0 : Fin 1))) = V c main_v77 (ix2 r (0 : Fin 1))
  refine congrArg (V c main_v77) ?_
  funext a; apply Fin.ext
  match a with
  | ⟨0, _⟩ => show win3_1.index t (0 : Fin 2) * 2000 + 1 * p.val = r.val; omega
  | ⟨1, _⟩ => show win3_1.index t (1 : Fin 2) * 1 + 1 * 0 = 0; omega

set_option maxHeartbeats 400000 in
/-- The bias row's block at any point is the whole row. -/
theorem softBias_read (c : Dev nD) (t : Fin cfg3.N) (q : Fin 128) :
    Gen.iblk3 V c 2 t (ix2 (0 : Fin 1) q) = V c main_v78 (ix2 (0 : Fin 1) q) := by
  obtain ⟨-, -, -, -, e0, e1, -, -⟩ := softIdx t
  show V c main_v78 (((cfg3.win 2).blk t).view.emb (ix2 (0 : Fin 1) q)) = V c main_v78 (ix2 (0 : Fin 1) q)
  refine congrArg (V c main_v78) ?_
  funext a; apply Fin.ext
  match a with
  | ⟨0, _⟩ => show win3_2.index t (0 : Fin 2) * 1 + 1 * 0 = 0; omega
  | ⟨1, _⟩ => show win3_2.index t (1 : Fin 2) * 128 + 1 * q.val = q.val; omega

set_option maxHeartbeats 400000 in
/-- What point t writes back is block t of the whole-array function: rows 2000 t … 2000 t + 1999 of
    max(seg · d + b, 0). -/
theorem softFlushed_eq (c : Dev nD) (t : Fin cfg3.N) :
    (Gen.dat3 (F := Ideal) V c).flushed 3 t
      = ((cfg3.win 3).blk t).view.read (Elt Ideal)
          (Hetero.combineSoft (V c main_v53) (V c main_v77) (V c main_v78)) := by
  show (cfg3.win 3).cut (grid3.coords t) ((Gen.dat3 V c).after 3 t) = _
  rw [Gen.after3_3]
  obtain ⟨-, -, -, -, -, -, e0, e1⟩ := softIdx t
  have hN : t.val < 25 := lt_of_lt_of_eq t.isLt Gen.N_3
  funext j
  obtain ⟨p, q, rfl⟩ : ∃ (p : Fin 2000) (q : Fin 128), j = ix2 p q := ⟨j 0, j 1, eq_ix2 j⟩
  have hr : t.val * 2000 + p.val < 50000 := by have := p.isLt; omega
  show Gen.out3_3 (Gen.iblk3 V c 0 t) (Gen.iblk3 V c 1 t) (Gen.iblk3 V c 2 t) (ix2 p q)
      = Hetero.combineSoft (V c main_v53) (V c main_v77) (V c main_v78) (((cfg3.win 3).blk t).view.emb (ix2 p q))
  have hemb : ((cfg3.win 3).blk t).view.emb (ix2 p q) = ix2 (⟨t.val * 2000 + p.val, hr⟩ : Fin 50000) q := by
    funext a; apply Fin.ext
    match a with
    | ⟨0, _⟩ => show win3_3.index t (0 : Fin 2) * 2000 + 1 * p.val = t.val * 2000 + p.val; omega
    | ⟨1, _⟩ => show win3_3.index t (1 : Fin 2) * 128 + 1 * q.val = q.val; omega
  rw [hemb, Hetero.combineSoft_apply]
  refine (softBlock_apply (Gen.iblk3 V c 0 t) (Gen.iblk3 V c 1 t) (Gen.iblk3 V c 2 t) p q).trans ?_
  rw [softSeg_read V c t p q ⟨_, hr⟩ rfl, softDinv_read V c t p ⟨_, hr⟩ rfl, softBias_read V c t q]

/-- An entry of the output array is in point t's block iff each coordinate is in the block's range on its axis. -/
theorem mem_softBlk (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v79).slice (win3_3.rect t)).set ↔ _
  rw [View.set_slice_whole, Rect.mem_set_unit]
  exact Iff.rfl

/-- The 25 blocks of 2000 rows tile the 50000 rows: row r is in the block of point r / 2000. -/
theorem softCover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 25) Gen.N_3.symm⟩, rfl⟩
  obtain ⟨-, -, -, -, -, -, e0, e1⟩ := softIdx t
  refine ⟨t, Gen.flush3_3 t, ?_⟩
  rw [mem_softBlk]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 128 ≤ (i 1).val ∧ (i 1).val < win3_3.index t (1 : Fin 2) * 128 + 128
    omega

/-- THE OUTPUT ARRAY of the software combine after its region: max(seg · d + b, 0), entry by entry, of the
    arrays the region found. -/
theorem final3 (c : Dev nD) :
    (Gen.dat3 (F := Ideal) V c).arrAt 3 cfg3.N
      = Hetero.combineSoft (V c main_v53) (V c main_v77) (V c main_v78) :=
  (Gen.dat3 (F := Ideal) V c).arrAt_eq_of_cover 3 _ (fun t _ => softFlushed_eq V c t) softCover

/-! ## The fused article combine on 50 row blocks of 2000 -/

set_option maxHeartbeats 400000 in
/-- One output block of the article combine, entry (p, q): the aggregate's entry scaled by row p's weight plus its
    bias, added to the neighbour-mean branch (row p of the mean block times column q of its weights, plus its bias,
    plus row p of the feature block times column q of the second weights), halved and clipped at zero. -/
theorem artBlock_apply (x0 : Vec Ideal S2000x128 .f32) (x1 : Vec Ideal S2000x1 .f32) (x2 : Vec Ideal S1x128 .f32)
    (x3 : Vec Ideal S2000x256 .f32) (x4 : Vec Ideal S256x128 .f32) (x5 : Vec Ideal S1x128 .f32)
    (x6 : Vec Ideal S2000x256 .f32) (x7 : Vec Ideal S256x128 .f32) (p : Fin 2000) (q : Fin 128) :
    Gen.out2_8 x0 x1 x2 x3 x4 x5 x6 x7 (ix2 p q)
      = max (((x0 (ix2 p q) * x1 (ix2 p (0 : Fin 1)) + x2 (ix2 (0 : Fin 1) q))
          + (((∑ k : Fin 256, x3 (ix2 p k) * x4 (ix2 k q)) + x5 (ix2 (0 : Fin 1) q))
              + ∑ k : Fin 256, x6 (ix2 p k) * x7 (ix2 k q))) * Hetero.half) Hetero.zero32 := by
  unfold Gen.out2_8
  rw [View.canon_unit_zero zero_offsets]
  simp only [View.ld_unit_zero (S := S2000x128) zero_offsets, View.ld_unit_zero (S := S2000x1) zero_offsets,
    View.ld_unit_zero (S := S1x128) zero_offsets, View.ld_unit_zero (S := S2000x256) zero_offsets,
    View.ld_unit_zero (S := S256x128) zero_offsets]
  unfold Gen.k2_pay1
  refine (maximumf_apply _ _ _).trans ?_
  refine congrArg₂ max ?_ rfl
  refine (mulf_apply _ _ _).trans ?_
  refine congrArg₂ (· * ·) ?_ rfl
  refine (addf_apply _ _ _).trans ?_
  refine congrArg₂ (· + ·) ?_ ?_
  · -- the normalised aggregate plus its bias
    refine (addf_apply _ _ _).trans ?_
    refine congrArg₂ (· + ·) ?_ ?_
    · refine (mulf_apply _ _ _).trans ?_
      refine congrArg₂ (· * ·) ?_ ?_
      · exact congrFun (shapeCast_self x0 _) _
      · refine (RowOps.broadcastTo_a1_ab_apply _ _ p q).trans ?_
        refine (congrFun (shapeCast_self _ _) _).trans ?_
        exact congrFun (shapeCast_self x1 _) _
    · refine (DotRecord.broadcastTo_1b_ab_apply _ _ p q).trans ?_
      exact congrFun (shapeCast_self x2 _) _
  · -- the neighbour-mean branch
    refine (addf_apply _ _ _).trans ?_
    refine congrArg₂ (· + ·) ?_ ?_
    · refine (addf_apply _ _ _).trans ?_
      refine congrArg₂ (· + ·) ?_ ?_
      · refine (DotRecord.matmul_zero_apply _ rfl rfl rfl rfl rfl rfl _ _ none p q).trans ?_
        refine Finset.sum_congr rfl fun k _ => ?_
        refine congrArg₂ (· * ·) ?_ ?_
        · refine (truncf_apply (ψ := .bf16) _ bitsLt_bf16_f32 _).trans ?_
          exact congrFun (shapeCast_self x3 _) _
        · exact truncf_apply (ψ := .bf16) _ bitsLt_bf16_f32 _
      · refine (DotRecord.broadcastTo_1b_ab_apply _ _ p q).trans ?_
        exact congrFun (shapeCast_self x5 _) _
    · refine (DotRecord.matmul_zero_apply _ rfl rfl rfl rfl rfl rfl _ _ none p q).trans ?_
      refine Finset.sum_congr rfl fun k _ => ?_
      exact congrArg₂ (· * ·) (truncf_apply (ψ := .bf16) _ bitsLt_bf16_f32 _)
        (truncf_apply (ψ := .bf16) _ bitsLt_bf16_f32 _)

/-- The block indices over the 50 points: the aggregate, the weight column, the mean, the features and the output
    move down the rows with the point; the two bias rows and the two weight matrices stay. -/
theorem artIdx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

set_option maxHeartbeats 400000 in
/-- The aggregate's block at point t, entry (p, q), is the array's entry (2000 t + p, q). -/
theorem artSeg_read (c : Dev nD) (t : Fin cfg2.N) (p : Fin 2000) (q : Fin 128) (r : Fin 100000)
    (hr : r.val = t.val * 2000 + p.val) :
    Gen.iblk2 V c 0 t (ix2 p q) = V c main_v26 (ix2 r q) := by
  obtain ⟨e0, e1, -⟩ := artIdx t
  show V c main_v26 (((cfg2.win 0).blk t).view.emb (ix2 p q)) = V c main_v26 (ix2 r q)
  refine congrArg (V c main_v26) ?_
  funext a; apply Fin.ext
  match a with
  | ⟨0, _⟩ => show win2_0.index t (0 : Fin 2) * 2000 + 1 * p.val = r.val; omega
  | ⟨1, _⟩ => show win2_0.index t (1 : Fin 2) * 128 + 1 * q.val = q.val; omega

set_option maxHeartbeats 400000 in
/-- The weight column's block at point t, entry (p, 0), is the column's entry (2000 t + p, 0). -/
theorem artDinv_read (c : Dev nD) (t : Fin cfg2.N) (p : Fin 2000) (r : Fin 100000)
    (hr : r.val = t.val * 2000 + p.val) :
    Gen.iblk2 V c 1 t (ix2 p (0 : Fin 1)) = V c main_v73 (ix2 r (0 : Fin 1)) := by
  obtain ⟨-, -, e0, e1, -⟩ := artIdx t
  show V c main_v73 (((cfg2.win 1).blk t).view.emb (ix2 p (0 : Fin 1))) = V c main_v73 (ix2 r (0 : Fin 1))
  refine congrArg (V c main_v73) ?_
  funext a; apply Fin.ext
  match a with
  | ⟨0, _⟩ => show win2_1.index t (0 : Fin 2) * 2000 + 1 * p.val = r.val; omega
  | ⟨1, _⟩ => show win2_1.index t (1 : Fin 2) * 1 + 1 * 0 = 0; omega

set_option maxHeartbeats 400000 in
/-- The aggregate's bias row: its block at any point is the whole row. -/
theorem artBias_read (c : Dev nD) (t : Fin cfg2.N) (q : Fin 128) :
    Gen.iblk2 V c 2 t (ix2 (0 : Fin 1) q) = V c main_v74 (ix2 (0 : Fin 1) q) := by
  obtain ⟨-, -, -, -, e0, e1, -⟩ := artIdx t
  show V c main_v74 (((cfg2.win 2).blk t).view.emb (ix2 (0 : Fin 1) q)) = V c main_v74 (ix2 (0 : Fin 1) q)
  refine congrArg (V c main_v74) ?_
  funext a; apply Fin.ext
  match a with
  | ⟨0, _⟩ => show win2_2.index t (0 : Fin 2) * 1 + 1 * 0 = 0; omega
  | ⟨1, _⟩ => show win2_2.index t (1 : Fin 2) * 128 + 1 * q.val = q.val; omega

set_option maxHeartbeats 400000 in
/-- The neighbour mean's block at point t, entry (p, k), is the array's entry (2000 t + p, k). -/
theorem artMean_read (c : Dev nD) (t : Fin cfg2.N) (p : Fin 2000) (k : Fin 256) (r : Fin 100000)
    (hr : r.val = t.val * 2000 + p.val) :
    Gen.iblk2 V c 3 t (ix2 p k) = V c main_v72 (ix2 r k) := by
  obtain ⟨-, -, -, -, -, -, e0, e1, -⟩ := artIdx t
  show V c main_v72 (((cfg2.win 3).blk t).view.emb (ix2 p k)) = V c main_v72 (ix2 r k)
  refine congrArg (V c main_v72) ?_
  funext a; apply Fin.ext
  match a with
  | ⟨0, _⟩ => show win2_3.index t (0 : Fin 2) * 2000 + 1 * p.val = r.val; omega
  | ⟨1, _⟩ => show win2_3.index t (1 : Fin 2) * 256 + 1 * k.val = k.val; omega

set_option maxHeartbeats 400000 in
/-- The mean branch's weights: the block at any point is the whole matrix. -/
theorem artWl_read (c : Dev nD) (t : Fin cfg2.N) (k : Fin 256) (q : Fin 128) :
    Gen.iblk2 V c 4 t (ix2 k q) = V c main_arg10 (ix2 k q) := by
  obtain ⟨-, -, -, -, -, -, -, -, e0, e1, -⟩ := artIdx t
  show V c main_arg10 (((cfg2.win 4).blk t).view.emb (ix2 k q)) = V c main_arg10 (ix2 k q)
  refine congrArg (V c main_arg10) ?_
  funext a; apply Fin.ext
  match a with
  | ⟨0, _⟩ => show win2_4.index t (0 : Fin 2) * 256 + 1 * k.val = k.val; omega
  | ⟨1, _⟩ => show win2_4.index t (1 : Fin 2) * 128 + 1 * q.val = q.val; omega

set_option maxHeartbeats 400000 in
/-- The mean branch's bias row: its block at any point is the whole row. -/
theorem artBl_read (c : Dev nD) (t : Fin cfg2.N) (q : Fin 128) :
    Gen.iblk2 V c 5 t (ix2 (0 : Fin 1) q) = V c main_v75 (ix2 (0 : Fin 1) q) := by
  obtain ⟨-, -, -, -, -, -, -, -, -, -, e0, e1, -⟩ := artIdx t
  show V c main_v75 (((cfg2.win 5).blk t).view.emb (ix2 (0 : Fin 1) q)) = V c main_v75 (ix2 (0 : Fin 1) q)
  refine congrArg (V c main_v75) ?_
  funext a; apply Fin.ext
  match a with
  | ⟨0, _⟩ => show win2_5.index t (0 : Fin 2) * 1 + 1 * 0 = 0; omega
  | ⟨1, _⟩ => show win2_5.index t (1 : Fin 2) * 128 + 1 * q.val = q.val; omega

set_option maxHeartbeats 400000 in
/-- The node features' block at point t, entry (p, k), is the array's entry (2000 t + p, k). -/
theorem artX_read (c : Dev nD) (t : Fin cfg2.N) (p : Fin 2000) (k : Fin 256) (r : Fin 100000)
    (hr : r.val = t.val * 2000 + p.val) :
    Gen.iblk2 V c 6 t (ix2 p k) = V c main_arg0 (ix2 r k) := by
  obtain ⟨-, -, -, -, -, -, -, -, -, -, -, -, e0, e1, -⟩ := artIdx t
  show V c main_arg0 (((cfg2.win 6).blk t).view.emb (ix2 p k)) = V c main_arg0 (ix2 r k)
  refine congrArg (V c main_arg0) ?_
  funext a; apply Fin.ext
  match a with
  | ⟨0, _⟩ => show win2_6.index t (0 : Fin 2) * 2000 + 1 * p.val = r.val; omega
  | ⟨1, _⟩ => show win2_6.index t (1 : Fin 2) * 256 + 1 * k.val = k.val; omega

set_option maxHeartbeats 400000 in
/-- The features' weights: the block at any point is the whole matrix. -/
theorem artWr_read (c : Dev nD) (t : Fin cfg2.N) (k : Fin 256) (q : Fin 128) :
    Gen.iblk2 V c 7 t (ix2 k q) = V c main_arg12 (ix2 k q) := by
  obtain ⟨-, -, -, -, -, -, -, -, -, -, -, -, -, -, e0, e1, -⟩ := artIdx t
  show V c main_arg12 (((cfg2.win 7).blk t).view.emb (ix2 k q)) = V c main_arg12 (ix2 k q)
  refine congrArg (V c main_arg12) ?_
  funext a; apply Fin.ext
  match a with
  | ⟨0, _⟩ => show win2_7.index t (0 : Fin 2) * 256 + 1 * k.val = k.val; omega
  | ⟨1, _⟩ => show win2_7.index t (1 : Fin 2) * 128 + 1 * q.val = q.val; omega

set_option maxHeartbeats 400000 in
/-- What point t writes back is block t of the whole-array function: rows 2000 t … 2000 t + 1999 of the
    averaged, clipped combination. -/
theorem artFlushed_eq (c : Dev nD) (t : Fin cfg2.N) :
    (Gen.dat2 (F := Ideal) V c).flushed 8 t
      = ((cfg2.win 8).blk t).view.read (Elt Ideal)
          (Hetero.combineArt (V c main_v26) (V c main_v73) (V c main_v74) (V c main_v72) (V c main_arg10)
            (V c main_v75) (V c main_arg0) (V c main_arg12)) := by
  show (cfg2.win 8).cut (grid2.coords t) ((Gen.dat2 V c).after 8 t) = _
  rw [Gen.after2_8]
  obtain ⟨-, -, -, -, -, -, -, -, -, -, -, -, -, -, -, -, e0, e1⟩ := artIdx t
  have hN : t.val < 50 := lt_of_lt_of_eq t.isLt Gen.N_2
  funext j
  obtain ⟨p, q, rfl⟩ : ∃ (p : Fin 2000) (q : Fin 128), j = ix2 p q := ⟨j 0, j 1, eq_ix2 j⟩
  have hr : t.val * 2000 + p.val < 100000 := by have := p.isLt; omega
  show Gen.out2_8 (Gen.iblk2 V c 0 t) (Gen.iblk2 V c 1 t) (Gen.iblk2 V c 2 t) (Gen.iblk2 V c 3 t)
        (Gen.iblk2 V c 4 t) (Gen.iblk2 V c 5 t) (Gen.iblk2 V c 6 t) (Gen.iblk2 V c 7 t) (ix2 p q)
      = Hetero.combineArt (V c main_v26) (V c main_v73) (V c main_v74) (V c main_v72) (V c main_arg10)
          (V c main_v75) (V c main_arg0) (V c main_arg12) (((cfg2.win 8).blk t).view.emb (ix2 p q))
  have hemb : ((cfg2.win 8).blk t).view.emb (ix2 p q) = ix2 (⟨t.val * 2000 + p.val, hr⟩ : Fin 100000) q := by
    funext a; apply Fin.ext
    match a with
    | ⟨0, _⟩ => show win2_8.index t (0 : Fin 2) * 2000 + 1 * p.val = t.val * 2000 + p.val; omega
    | ⟨1, _⟩ => show win2_8.index t (1 : Fin 2) * 128 + 1 * q.val = q.val; omega
  rw [hemb, Hetero.combineArt_apply]
  refine (artBlock_apply (Gen.iblk2 V c 0 t) (Gen.iblk2 V c 1 t) (Gen.iblk2 V c 2 t) (Gen.iblk2 V c 3 t)
    (Gen.iblk2 V c 4 t) (Gen.iblk2 V c 5 t) (Gen.iblk2 V c 6 t) (Gen.iblk2 V c 7 t) p q).trans ?_
  refine congrArg₂ max ?_ rfl
  refine congrArg₂ (· * ·) ?_ rfl
  refine congrArg₂ (· + ·)
    (congrArg₂ (· + ·)
      (congrArg₂ (· * ·) (artSeg_read V c t p q ⟨_, hr⟩ rfl) (artDinv_read V c t p ⟨_, hr⟩ rfl))
      (artBias_read V c t q)) ?_
  refine congrArg₂ (· + ·)
    (congrArg₂ (· + ·)
      (Finset.sum_congr rfl fun k _ =>
        congrArg₂ (· * ·) (artMean_read V c t p k ⟨_, hr⟩ rfl) (artWl_read V c t k q))
      (artBl_read V c t q))
    (Finset.sum_congr rfl fun k _ =>
      congrArg₂ (· * ·) (artX_read V c t p k ⟨_, hr⟩ rfl) (artWr_read V c t k q))

/-- An entry of the output array is in point t's block iff each coordinate is in the block's range on its axis. -/
theorem mem_artBlk (t : Fin cfg2.N) (i : S100000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v76).slice (win2_8.rect t)).set ↔ _
  rw [View.set_slice_whole, Rect.mem_set_unit]
  exact Iff.rfl

/-- The 50 blocks of 2000 rows tile the 100000 rows: row r is in the block of point r / 2000. -/
theorem artCover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 50) Gen.N_2.symm⟩, rfl⟩
  obtain ⟨-, -, -, -, -, -, -, -, -, -, -, -, -, -, -, -, e0, e1⟩ := artIdx t
  refine ⟨t, Gen.flush2_8 t, ?_⟩
  rw [mem_artBlk]
  intro a
  match a with
  | ⟨0, _⟩ =>
    show win2_8.index t (0 : Fin 2) * 2000 ≤ (i 0).val ∧ (i 0).val < win2_8.index t (0 : Fin 2) * 2000 + 2000
    omega
  | ⟨1, _⟩ =>
    show win2_8.index t (1 : Fin 2) * 128 ≤ (i 1).val ∧ (i 1).val < win2_8.index t (1 : Fin 2) * 128 + 128
    omega

/-- THE OUTPUT ARRAY of the article combine after its region: the averaged, clipped combination, entry by entry,
    of the arrays the region found. -/
theorem final2 (c : Dev nD) :
    (Gen.dat2 (F := Ideal) V c).arrAt 8 cfg2.N
      = Hetero.combineArt (V c main_v26) (V c main_v73) (V c main_v74) (V c main_v72) (V c main_arg10)
          (V c main_v75) (V c main_arg0) (V c main_arg12) :=
  (Gen.dat2 (F := Ideal) V c).arrAt_eq_of_cover 8 _ (fun t _ => artFlushed_eq V c t) artCover

end Cert.KernelIdeal.RegionValue

end
-- ==== Proof.KWalk9.lean ====
/-
  The tiled program's buffers from the exit of its second projection region to the exit of its article combine.

  Between the two regions the program applies a stretch of host operations that (i) builds the software segment
  sum — the gathered rows of the source-scaled software projection, summed by destination —, (ii) builds the
  neighbour mean — the gathered source rows summed by destination and divided by the clipped neighbour count —, and
  (iii) reshapes the article normalisation vector to a column and two bias vectors to rows. Each such buffer is named
  here as a closed term of the program's arguments, given what the buffers held at the projection region's exit;
  every other buffer that matters later is one the stretch does not write. The article combine region then leaves
  in its output array the whole-array combination of the arrays it found, and leaves alone every buffer that is
  not one of its arrays.
-/
import proofs.«119477_j88364657147989_2_alg».proof.Proof.Gen.KernelIdeal.Frame
import proofs.«119477_j88364657147989_2_alg».proof.Proof.RefRead
import proofs.«119477_j88364657147989_2_alg».proof.Proof.KTerms
import proofs.«119477_j88364657147989_2_alg».proof.Proof.RegionCombine
import proofs.«119477_j88364657147989_2_alg».proof.Proof.Spec
import proofs.«119477_j88364657147989_2_alg».proof.Proof.LibRowOps
import Idealize.ShloMosaic.PureOps.Ideal
import Idealize.ShloMosaic.Lib.StableHlo.Run
import Idealize.ShloMosaic.Lib.Pipeline.Value
import Idealize.ShloMosaic.Lib.ValueIdx

set_option maxRecDepth 16384

noncomputable section

namespace Cert.KernelIdeal.KRun

open Cert.KernelIdeal Cert.KernelIdeal.Gen Cert.ReferenceIdeal.ReadP Cert.ReferenceIdeal.RefValue
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

set_option quotPrecheck false
local notation "⟪" b "⟫" => Proc.devRef .tc b
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
set_option quotPrecheck true

/-- A buffer that no operation of a stretch writes holds after the stretch what it held before it. -/
local macro "carried_over " ops:ident buf:ident : tactic =>
  `(tactic| exact StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## A vector reshaped to a column or to a row -/

/-- A length-n vector reshaped to [n, 1] is the column of its entries. -/
theorem reshape_col {n : ℕ} (v : FVec Ideal ⟨1, ![n]⟩ .f32) (h : (⟨1, ![n]⟩ : Shape).ShapeCasts ⟨2, ![n, 1]⟩) :
    shapeCast ⟨2, ![n, 1]⟩ v h = Hetero.colOf v := by
  funext i
  obtain ⟨p, u, rfl⟩ : ∃ (p : Fin n) (u : Fin 1), i = ix2 p u := ⟨i 0, i 1, eq_ix2 i⟩
  exact RowOps.shapeCast_a_a1_apply v h p u

/-- A length-n vector reshaped to [1, n] is the row of its entries. -/
theorem reshape_row {n : ℕ} (v : FVec Ideal ⟨1, ![n]⟩ .f32) (h : (⟨1, ![n]⟩ : Shape).ShapeCasts ⟨2, ![1, n]⟩) :
    shapeCast ⟨2, ![1, n]⟩ v h = Hetero.rowOf v := by
  funext i
  obtain ⟨u, q, rfl⟩ : ∃ (u : Fin 1) (q : Fin n), i = ix2 u q := ⟨i 0, i 1, eq_ix2 i⟩
  refine shapeCast_apply v h (ix2 u q) (ix1 q) ?_
  have hu : u.val = 0 := by omega
  rw [Shape.rowMajor_val_two, Shape.rowMajor_val_one]
  show q.val = u.val * n + q.val
  rw [hu, Nat.zero_mul, Nat.zero_add]

/-! ## The stretch between the second projection and the article combine -/

/-! ### Buffers the stretch does not write -/

theorem carry9_v26 : W9 m ρ c ⟪main_v26⟫ = W8 m ρ c ⟪main_v26⟫ := by carried_over hostOps2 main_v26
theorem carry9_v41 : W9 m ρ c ⟪main_v41⟫ = W8 m ρ c ⟪main_v41⟫ := by carried_over hostOps2 main_v41
theorem carry9_arg0 : W9 m ρ c ⟪main_arg0⟫ = W8 m ρ c ⟪main_arg0⟫ := by carried_over hostOps2 main_arg0
theorem carry9_arg9 : W9 m ρ c ⟪main_arg9⟫ = W8 m ρ c ⟪main_arg9⟫ := by carried_over hostOps2 main_arg9
theorem carry9_arg10 : W9 m ρ c ⟪main_arg10⟫ = W8 m ρ c ⟪main_arg10⟫ := by carried_over hostOps2 main_arg10
theorem carry9_arg12 : W9 m ρ c ⟪main_arg12⟫ = W8 m ρ c ⟪main_arg12⟫ := by carried_over hostOps2 main_arg12

/-- The article segment sum is carried to the combine's entry. -/
theorem w9_v26 (h26 : W8 m ρ c ⟪main_v26⟫ = segA a0 a2 a6) : W9 m ρ c ⟪main_v26⟫ = segA a0 a2 a6 :=
  (carry9_v26 m ρ c).trans h26
/-- The software normalisation vector is carried. -/
theorem w9_v41 (h41 : W8 m ρ c ⟪main_v41⟫ = val_main_v62 (F := Ideal) a3) :
    W9 m ρ c ⟪main_v41⟫ = val_main_v62 (F := Ideal) a3 := (carry9_v41 m ρ c).trans h41
theorem w9_arg0 (h : W8 m ρ c ⟪main_arg0⟫ = a0) : W9 m ρ c ⟪main_arg0⟫ = a0 := (carry9_arg0 m ρ c).trans h
theorem w9_arg9 (h : W8 m ρ c ⟪main_arg9⟫ = a9) : W9 m ρ c ⟪main_arg9⟫ = a9 := (carry9_arg9 m ρ c).trans h
theorem w9_arg10 (h : W8 m ρ c ⟪main_arg10⟫ = a10) : W9 m ρ c ⟪main_arg10⟫ = a10 := (carry9_arg10 m ρ c).trans h
theorem w9_arg12 (h : W8 m ρ c ⟪main_arg12⟫ = a12) : W9 m ρ c ⟪main_arg12⟫ = a12 := (carry9_arg12 m ρ c).trans h

/-! ### The three reshapes -/

set_option maxHeartbeats 4000000 in
/-- The article normalisation vector as a column. -/
theorem w9_v73 (h14 : W8 m ρ c ⟪main_v14⟫ = val_main_v15 (F := Ideal) a2) :
    W9 m ρ c ⟪main_v73⟫ = Hetero.colOf (val_main_v15 (F := Ideal) a2) := by
  dsimp only [W9, hostOps2]
  after_results_simp
  rw [h14]
  exact reshape_col _ _

set_option maxHeartbeats 4000000 in
/-- The article aggregate's bias as a row. -/
theorem w9_v74 (h7 : W8 m ρ c ⟪main_arg7⟫ = a7) : W9 m ρ c ⟪main_v74⟫ = Hetero.rowOf a7 := by
  dsimp only [W9, hostOps2]
  after_results_simp
  rw [h7]
  exact reshape_row _ _

set_option maxHeartbeats 4000000 in
/-- The neighbour-mean branch's bias as a row. -/
theorem w9_v75 (h11 : W8 m ρ c ⟪main_arg11⟫ = a11) : W9 m ρ c ⟪main_v75⟫ = Hetero.rowOf a11 := by
  dsimp only [W9, hostOps2]
  after_results_simp
  rw [h11]
  exact reshape_row _ _

/-! ### The software segment sum and the neighbour mean -/

set_option maxHeartbeats 4000000 in
/-- The software segment sum: the scatter-add, by destination, of the gathered rows of the source-scaled
    projection, the gather's index column being the source column with negative entries wrapped. -/
theorem w9_v53
    (h43 : W8 m ρ c ⟪main_v43⟫ = Hetero.projScaled a1 a8 (Hetero.colOf (val_main_v62 (F := Ideal) a3)))
    (h32 : W8 m ρ c ⟪main_v32⟫ = val_main_v53 (F := Ideal) a3)
    (h33 : W8 m ρ c ⟪main_v33⟫ = val_main_v54 (F := Ideal) a3) :
    W9 m ρ c ⟪main_v53⟫ = segS a1 a3 a8 := by
  dsimp only [W9, hostOps2]
  after_results_simp
  rw [h43, h32, h33]
  rfl

set_option maxHeartbeats 4000000 in
/-- The neighbour mean: the gathered source rows summed by destination, divided by the destination's clipped
    neighbour count. -/
theorem w9_v72 (h1 : W8 m ρ c ⟪main_arg1⟫ = a1) (h4 : W8 m ρ c ⟪main_arg4⟫ = a4)
    (h5 : W8 m ρ c ⟪main_arg5⟫ = a5) :
    W9 m ρ c ⟪main_v72⟫ = val_main_v112 (F := Ideal) a1 a4 a5 := by
  dsimp only [W9, hostOps2]
  after_results_simp
  rw [h1, h4, h5]
  rfl

/-! ## The article combine region: its output, and the buffers it leaves alone -/

set_option maxHeartbeats 4000000 in
/-- The article combine's output array at the region's exit: the averaged, clipped combination of the article
    segment sum (scaled by the article normalisation column, plus its bias row) with the neighbour-mean branch. -/
theorem w10_v76
    (h26 : W8 m ρ c ⟪main_v26⟫ = segA a0 a2 a6)
    (h14 : W8 m ρ c ⟪main_v14⟫ = val_main_v15 (F := Ideal) a2)
    (h7 : W8 m ρ c ⟪main_arg7⟫ = a7)
    (h1 : W8 m ρ c ⟪main_arg1⟫ = a1) (h4 : W8 m ρ c ⟪main_arg4⟫ = a4) (h5 : W8 m ρ c ⟪main_arg5⟫ = a5)
    (h10 : W8 m ρ c ⟪main_arg10⟫ = a10) (h11 : W8 m ρ c ⟪main_arg11⟫ = a11)
    (h0 : W8 m ρ c ⟪main_arg0⟫ = a0) (h12 : W8 m ρ c ⟪main_arg12⟫ = a12) :
    W10 m ρ c ⟪main_v76⟫ = artK a0 a1 a2 a4 a5 a6 a7 a10 a11 a12 := by
  refine (W10_arr m ρ c 8).trans ?_
  refine (RegionValue.final2 (V9 m ρ) c).trans ?_
  rw [show V9 m ρ c main_v26 = segA a0 a2 a6 from w9_v26 m ρ c h26,
    show V9 m ρ c main_v73 = Hetero.colOf (val_main_v15 (F := Ideal) a2) from w9_v73 m ρ c h14,
    show V9 m ρ c main_v74 = Hetero.rowOf a7 from w9_v74 m ρ c h7,
    show V9 m ρ c main_v72 = val_main_v112 (F := Ideal) a1 a4 a5 from w9_v72 m ρ c h1 h4 h5,
    show V9 m ρ c main_arg10 = a10 from w9_arg10 m ρ c h10,
    show V9 m ρ c main_v75 = Hetero.rowOf a11 from w9_v75 m ρ c h11,
    show V9 m ρ c main_arg0 = a0 from w9_arg0 m ρ c h0,
    show V9 m ρ c main_arg12 = a12 from w9_arg12 m ρ c h12]
  rfl

/-- The software segment sum is not one of the article combine's arrays: the region leaves it. -/
theorem w10_v53
    (h43 : W8 m ρ c ⟪main_v43⟫ = Hetero.projScaled a1 a8 (Hetero.colOf (val_main_v62 (F := Ideal) a3)))
    (h32 : W8 m ρ c ⟪main_v32⟫ = val_main_v53 (F := Ideal) a3)
    (h33 : W8 m ρ c ⟪main_v33⟫ = val_main_v54 (F := Ideal) a3) :
    W10 m ρ c ⟪main_v53⟫ = segS a1 a3 a8 :=
  (W10_of_ne m ρ c main_v53 (by decide)).trans (w9_v53 m ρ c h43 h32 h33)

/-- Nor is the software normalisation vector. -/
theorem w10_v41 (h41 : W8 m ρ c ⟪main_v41⟫ = val_main_v62 (F := Ideal) a3) :
    W10 m ρ c ⟪main_v41⟫ = val_main_v62 (F := Ideal) a3 :=
  (W10_of_ne m ρ c main_v41 (by decide)).trans (w9_v41 m ρ c h41)

/-- Nor is the software bias. -/
theorem w10_arg9 (h9 : W8 m ρ c ⟪main_arg9⟫ = a9) : W10 m ρ c ⟪main_arg9⟫ = a9 :=
  (W10_of_ne m ρ c main_arg9 (by decide)).trans (w9_arg9 m ρ c h9)

end Cert.KernelIdeal.KRun

end
-- ==== Proof.KWalk12.lean ====
/-
  The tiled program's buffers from the third region's exit to the last region's exit.

  After the article combine the host only reshapes the software scale to a column and the software bias to a row;
  the last region then combines the raw software segment sum with them. The article result, written by the third
  region, is touched by nothing afterwards.
-/
import proofs.«119477_j88364657147989_2_alg».proof.Proof.Gen.KernelIdeal.Frame
import proofs.«119477_j88364657147989_2_alg».proof.Proof.RefRead
import proofs.«119477_j88364657147989_2_alg».proof.Proof.KTerms
import proofs.«119477_j88364657147989_2_alg».proof.Proof.Spec
import proofs.«119477_j88364657147989_2_alg».proof.Proof.RegionCombine
import proofs.«119477_j88364657147989_2_alg».proof.Proof.LibRowOps
import Idealize.ShloMosaic.PureOps.Ideal
import Idealize.ShloMosaic.Lib.StableHlo.Run
import Idealize.ShloMosaic.Lib.ValueLayout

set_option maxRecDepth 16384

noncomputable section

namespace Cert.KernelIdeal.KRun

open Cert.KernelIdeal Cert.KernelIdeal.Gen Cert.ReferenceIdeal.ReadP Cert.ReferenceIdeal.RefValue
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-- A buffer that no operation of a stretch of host operations writes keeps its contents across the stretch. -/
local macro "unwritten" : tactic => `(tactic| (
  refine StableHlo.after_of_forall_not_mem _ _ (List.forall_iff_forall_mem.mp ?_)
  simp only [hostOps0, hostOps0_1, hostOps0_2, hostOps1, hostOps1_1, hostOps1_2, hostOps2, hostOps3,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A length-n vector reshaped to [n, 1] is that vector as a column. -/
theorem shapeCast_col' {n : ℕ} (v : FVec Ideal ⟨1, ![n]⟩ .f32) (h : (⟨1, ![n]⟩ : Shape).ShapeCasts ⟨2, ![n, 1]⟩) :
    shapeCast ⟨2, ![n, 1]⟩ v h = Hetero.colOf v := by
  funext i
  obtain ⟨p, u, rfl⟩ : ∃ (p : Fin n) (u : Fin 1), i = ix2 p u := ⟨i 0, i 1, eq_ix2 i⟩
  exact RowOps.shapeCast_a_a1_apply v h p u

/-- A length-n vector reshaped to [1, n] is that vector as a row. -/
theorem shapeCast_row' {n : ℕ} (v : FVec Ideal ⟨1, ![n]⟩ .f32) (h : (⟨1, ![n]⟩ : Shape).ShapeCasts ⟨2, ![1, n]⟩) :
    shapeCast ⟨2, ![1, n]⟩ v h = Hetero.rowOf v := by
  funext i
  obtain ⟨u, q, rfl⟩ : ∃ (u : Fin 1) (q : Fin n), i = ix2 u q := ⟨i 0, i 1, eq_ix2 i⟩
  exact shapeCast_a_1a_apply v h u q

/-! ## Region 3's entry -/

set_option maxHeartbeats 4000000 in
/-- The software scale as the column the last region reads. -/
theorem w11_v77 (h41 : W10 m ρ c (Proc.devRef .tc main_v41) = val_main_v62 (F := Ideal) (m ((c : Thread nD τ).loc main_arg3))) :
    W11 m ρ c (Proc.devRef .tc main_v77) = Hetero.colOf (val_main_v62 (F := Ideal) (m ((c : Thread nD τ).loc main_arg3))) := by
  have e : W11 m ρ c (Proc.devRef .tc main_v77)
      = shapeCast S50000x1 (W10 m ρ c (Proc.devRef .tc main_v41)) shapeCasts_S50000_S50000x1 := by
    dsimp only [W11, hostOps3]
    after_results
    rfl
  rw [e, h41]
  exact shapeCast_col' _ _

set_option maxHeartbeats 4000000 in
/-- The software bias as the row the last region reads. -/
theorem w11_v78 (h9 : W10 m ρ c (Proc.devRef .tc main_arg9) = (m ((c : Thread nD τ).loc main_arg9))) :
    W11 m ρ c (Proc.devRef .tc main_v78) = Hetero.rowOf (m ((c : Thread nD τ).loc main_arg9)) := by
  have e : W11 m ρ c (Proc.devRef .tc main_v78)
      = shapeCast S1x128 (W10 m ρ c (Proc.devRef .tc main_arg9)) shapeCasts_S128_S1x128 := by
    dsimp only [W11, hostOps3]
    after_results
    rfl
  rw [e, h9]
  exact shapeCast_row' _ _

theorem w11_v53 (h53 : W10 m ρ c (Proc.devRef .tc main_v53) = segS (m ((c : Thread nD τ).loc main_arg1)) (m ((c : Thread nD τ).loc main_arg3)) (m ((c : Thread nD τ).loc main_arg8))) : W11 m ρ c (Proc.devRef .tc main_v53) = segS (m ((c : Thread nD τ).loc main_arg1)) (m ((c : Thread nD τ).loc main_arg3)) (m ((c : Thread nD τ).loc main_arg8)) :=
  (show W11 m ρ c (Proc.devRef .tc main_v53) = W10 m ρ c (Proc.devRef .tc main_v53) by unwritten).trans h53

theorem w11_v76 (h76 : W10 m ρ c (Proc.devRef .tc main_v76) = artK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12))) : W11 m ρ c (Proc.devRef .tc main_v76) = artK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) :=
  (show W11 m ρ c (Proc.devRef .tc main_v76) = W10 m ρ c (Proc.devRef .tc main_v76) by unwritten).trans h76

/-! ## Region 3's exit: the two results -/

/-- The last region leaves the software result. -/
theorem w12_v79 (h53 : W10 m ρ c (Proc.devRef .tc main_v53) = segS (m ((c : Thread nD τ).loc main_arg1)) (m ((c : Thread nD τ).loc main_arg3)) (m ((c : Thread nD τ).loc main_arg8))) (h41 : W10 m ρ c (Proc.devRef .tc main_v41) = val_main_v62 (F := Ideal) (m ((c : Thread nD τ).loc main_arg3)))
    (h9 : W10 m ρ c (Proc.devRef .tc main_arg9) = (m ((c : Thread nD τ).loc main_arg9))) :
    W12 m ρ c (Proc.devRef .tc main_v79) = softK (m ((c : Thread nD τ).loc main_arg1)) (m ((c : Thread nD τ).loc main_arg3)) (m ((c : Thread nD τ).loc main_arg8)) (m ((c : Thread nD τ).loc main_arg9)) := by
  refine (W12_arr m ρ c 3).trans ((Cert.KernelIdeal.RegionValue.final3 (V11 m ρ) c).trans ?_)
  rw [show V11 m ρ c main_v53 = _ from w11_v53 m ρ c h53, show V11 m ρ c main_v77 = _ from w11_v77 m ρ c h41,
    show V11 m ρ c main_v78 = _ from w11_v78 m ρ c h9]
  rfl

/-- The article result is not one of the last region's arrays. -/
theorem w12_v76 (h76 : W10 m ρ c (Proc.devRef .tc main_v76) = artK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12))) : W12 m ρ c (Proc.devRef .tc main_v76) = artK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) :=
  (W12_of_ne m ρ c main_v76 (by decide)).trans (w11_v76 m ρ c h76)

end Cert.KernelIdeal.KRun

end
-- ==== Proof.KValue.lean ====
/-
  The tiled program's run with its two results as functions of the arguments.

  The boundary-to-boundary facts are composed: the article result is what the third region leaves (the combine of
  the raw article segment sum with the scale column, the bias row, the neighbour mean and the root features), carried
  unchanged to the end; the software result is what the last region leaves. With the run's final buffers named, this
  gives the run's post: both results at `artK` / `softK` of the arguments, the arguments unchanged.
-/
import proofs.«119477_j88364657147989_2_alg».proof.Proof.Gen.KernelIdeal.Frame
import proofs.«119477_j88364657147989_2_alg».proof.Proof.RefRead
import proofs.«119477_j88364657147989_2_alg».proof.Proof.KTerms
import proofs.«119477_j88364657147989_2_alg».proof.Proof.Spec
import proofs.«119477_j88364657147989_2_alg».proof.Proof.KRunFrame
import proofs.«119477_j88364657147989_2_alg».proof.Proof.KWalk3
import proofs.«119477_j88364657147989_2_alg».proof.Proof.KWalk7
import proofs.«119477_j88364657147989_2_alg».proof.Proof.KWalk9
import proofs.«119477_j88364657147989_2_alg».proof.Proof.KWalk12
import Idealize.ShloMosaic.PureOps.Ideal

set_option maxRecDepth 16384

noncomputable section

namespace Cert.KernelIdeal.KRun

open Cert.KernelIdeal Cert.KernelIdeal.Gen Cert.ReferenceIdeal.ReadP Cert.ReferenceIdeal.RefValue
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-- The article result at the last boundary. -/
theorem w12_art : W12 m ρ c (Proc.devRef .tc main_v76) = artK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) :=
  w12_v76 m ρ c (w10_v76 m ρ c
    (w8_v26 m ρ c (w4_v5 m ρ c) (w4_v6 m ρ c) (w4_v16 m ρ c))
    (w8_v14 m ρ c (w4_v14 m ρ c))
    (w8_arg7 m ρ c (w4_arg7 m ρ c))
    (w8_arg1 m ρ c (w4_arg1 m ρ c))
    (w8_arg4 m ρ c (w4_arg4 m ρ c))
    (w8_arg5 m ρ c (w4_arg5 m ρ c))
    (w8_arg10 m ρ c (w4_arg10 m ρ c))
    (w8_arg11 m ρ c (w4_arg11 m ρ c))
    (w8_arg0 m ρ c (w4_arg0 m ρ c))
    (w8_arg12 m ρ c (w4_arg12 m ρ c)))

/-- The software result at the last boundary. -/
theorem w12_soft : W12 m ρ c (Proc.devRef .tc main_v79) = softK (m ((c : Thread nD τ).loc main_arg1)) (m ((c : Thread nD τ).loc main_arg3)) (m ((c : Thread nD τ).loc main_arg8)) (m ((c : Thread nD τ).loc main_arg9)) :=
  w12_v79 m ρ c
    (w10_v53 m ρ c (w8_v43 m ρ c (w4_arg1 m ρ c) (w4_arg8 m ρ c) (w4_arg3 m ρ c)) (w8_v32 m ρ c (w4_arg3 m ρ c)) (w8_v33 m ρ c (w4_arg3 m ρ c)))
    (w10_v41 m ρ c (w8_v41 m ρ c (w4_arg3 m ρ c)))
    (w10_arg9 m ρ c (w8_arg9 m ρ c (w4_arg9 m ρ c)))

end Cert.KernelIdeal.KRun

namespace Cert.KernelIdeal.KRun

open Cert.KernelIdeal Cert.KernelIdeal.Gen Cert.ReferenceIdeal.ReadP Cert.ReferenceIdeal.RefValue
open Idealize.ShloMosaic Idealize.ShloMosaic.TcCoe Idealize.SL.Sem

/-- Every weakly fair execution of the tiled program terminates, nothing faulting, with the article result at
    `artK` and the software result at `softK` of the arguments, and the arguments unchanged. -/
theorem krun (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v76)
        = artK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12))
      ∧ r.2.mem ((c.tc : Thread nD τ).loc main_v79)
        = softK (m ((c.tc : Thread nD τ).loc main_arg1)) (m ((c.tc : Thread nD τ).loc main_arg3)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v76 (by decide))).trans (w12_art m ρ c),
     (h c _ (mem_uc main_v79 (by decide))).trans (w12_soft m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c)⟩)
    (run_named (F := Ideal) m ρ)

end Cert.KernelIdeal.KRun

end
-- ==== Proof.lean ====
/- The proof of `Cert.Claim` for a heterogeneous graph layer: two normalised graph convolutions (articles, software)
   and a neighbour-mean convolution from software to articles, averaged and clipped at zero.

   The tiled program and the reference agree operation for operation except in ONE place: the symmetric
   normalisation of a graph convolution. The reference scales every gathered row by  dinv[src] · dinv[dst]  before it
   sums the rows by destination; the tiled program scales the projection's row r by dinv[r] once, sums the gathered
   rows by destination unscaled, and multiplies the sum's row p by dinv[p] afterwards. On the extended reals
       (Σ_{e → p} h[src e] · dinv[src e]) · dinv[p]  =  Σ_{e → p} h[src e] · (dinv[src e] · dinv[p])
   holds because the scale dinv[p] — the inverse square root of a count where that is positive, zero elsewhere — is
   nonnegative and finite (multiplication by such a factor distributes over a sum whatever the summands are); no
   finiteness of the inputs is used. Everything else is the same term on both sides.

   How it is assembled: the tiled program's run with its final buffers named (Proof/KRunFrame.lean); its buffers
   walked from boundary to boundary down to the argument arrays (Proof/KWalk3, 7, 9, 12 over the four regions' results
   Proof/RegionProj, RegionCombine); the reference's run and its stage-by-stage reading (Proof/RefRun, RefRead), its
   two results and its per-edge update read at an entry (Proof/RefResults, RefUpdates); the law (Proof/SegLaw) and its
   use (Proof/Bridge); the specification both sides meet (Proof/Spec, KTerms). No rewrite was applied when the
   idealized program was printed, so the idealization conjunct is trivial. -/
import proofs.«119477_j88364657147989_2_alg».proof.Defs
import proofs.«119477_j88364657147989_2_alg».proof.Proof.Gen.Kernel
import proofs.«119477_j88364657147989_2_alg».proof.Proof.Gen.Kernel.Skeleton
import proofs.«119477_j88364657147989_2_alg».proof.Proof.Gen.Kernel.Launch
import proofs.«119477_j88364657147989_2_alg».proof.Proof.Gen.Kernel.Points
import proofs.«119477_j88364657147989_2_alg».proof.Proof.Gen.Kernel.Frame
import proofs.«119477_j88364657147989_2_alg».proof.Proof.Gen.KernelIdeal
import proofs.«119477_j88364657147989_2_alg».proof.Proof.Gen.KernelIdeal.Skeleton
import proofs.«119477_j88364657147989_2_alg».proof.Proof.Gen.KernelIdeal.Launch
import proofs.«119477_j88364657147989_2_alg».proof.Proof.Gen.KernelIdeal.Points
import proofs.«119477_j88364657147989_2_alg».proof.Proof.Gen.KernelIdeal.Frame
import proofs.«119477_j88364657147989_2_alg».proof.Proof.Gen.ReferenceIdeal
import proofs.«119477_j88364657147989_2_alg».proof.Proof.Gen.Pre_finite_inputs
import proofs.«119477_j88364657147989_2_alg».proof.Proof.RefRun
import proofs.«119477_j88364657147989_2_alg».proof.Proof.RefRead
import proofs.«119477_j88364657147989_2_alg».proof.Proof.Bridge
import proofs.«119477_j88364657147989_2_alg».proof.Proof.KValue
import Idealize.ShloMosaic.Adequacy
import Idealize.ShloMosaic.Init

noncomputable section

namespace Cert.Proof

open Idealize.ShloMosaic Idealize.SL.Sem
open Cert.ReferenceIdeal.RefValue

/-- The word-level program runs and leaves its arguments unchanged: its generated frame. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealized program is the printed program read on the extended reals: nothing was rewritten. -/
theorem preserves : Cert.preserves_Kernel_KernelIdeal := trivial

/-- From memories agreeing on the arguments both programs end with the same two arrays: the tiled program's are
    `artK` and `softK` of its arguments, the reference's its last two stages of its own, and those are equal. -/
theorem algebraic : Cert.algebraic_KernelIdeal_ReferenceIdeal := by
  intro m ρ m' ρ' _ hagree
  refine ⟨fun c => artK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => softK (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KRun.krun m ρ, ?_⟩
  refine (θ_run Cert.ReferenceIdeal.defs _ _).mono (fun _ h c => ?_) (Cert.ReferenceIdeal.ValueP.run (F := Ideal) m' ρ')
  obtain ⟨e0, e1, e2, e3, e4, e5, e6, e7, e8, e9, e10, e11, e12⟩ := hagree c
  refine ⟨(h c).1.trans ?_, (h c).2.1.trans ?_, (h c).2.2⟩
  · rw [Cert.ReferenceIdeal.ReadP.val_main_v122_eq, e0, e1, e2, e4, e5, e6, e7, e10, e11, e12]
    exact (artK_eq _ _ _ _ _ _ _ _ _ _).symm
  · rw [Cert.ReferenceIdeal.ReadP.val_main_v123_eq, e1, e3, e8, e9]
    exact (softK_eq _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
